-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S20000x64 : Shape := ⟨2, ![20000, 64]⟩
abbrev S30000x64 : Shape := ⟨2, ![30000, 64]⟩
abbrev S100000x64 : Shape := ⟨2, ![100000, 64]⟩
abbrev S64x64 : Shape := ⟨2, ![64, 64]⟩
abbrev S64 : Shape := ⟨1, ![64]⟩
abbrev S32x8 : Shape := ⟨2, ![32, 8]⟩
abbrev S32 : Shape := ⟨1, ![32]⟩
abbrev S1x32 : Shape := ⟨2, ![1, 32]⟩
abbrev S1 : Shape := ⟨1, ![1]⟩
abbrev S2000000x8 : Shape := ⟨2, ![2000000, 8]⟩
abbrev S1000000 : Shape := ⟨1, ![1000000]⟩
abbrev S100000 : Shape := ⟨1, ![100000]⟩
abbrev S4096 : Shape := ⟨1, ![4096]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S30000x64 : S_.BroadcastsInDim S30000x64 (![] : Fin 0 → Fin S30000x64.rank)
  reducesTo_S30000x64_S_d0_1 : S30000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S2000000x8 : S_.BroadcastsInDim S2000000x8 (![] : Fin 0 → Fin S2000000x8.rank)
  reducesTo_S2000000x8_S_d0_1 : S2000000x8.ReducesTo [0, 1] S_

variable [Facts]

def fn_part3 {F : FTy → Type} [FloatOps F] (main_v48 : IVec S_ 1) (main_v49 : FVec F S2000000x8 .f32) (main_v50 : FVec F S2000000x8 .f32) : IVec S_ 1 :=
  let main_v51 : IVec S2000000x8 1 := cmpf .olt main_v49 main_v50
  let main_c_19 : IVec S_ 1 := constantI S_ 1 1#1
  let main_v52 : IVec S_ 1 := (fun x v => Host.reduce IntOp.andi x v reducesTo_S2000000x8_S_d0_1 h_S_) main_v51 main_c_19
  let main_v53 : IVec S_ 1 := andi main_v48 main_v52
  main_v53

def fn_part2 {F : FTy → Type} [FloatOps F] (main_arg7 : FVec F S32 .f32) (main_arg8 : FVec F S1x32 .f32) (main_arg9 : FVec F S1 .f32) (main_arg10 : FVec F S2000000x8 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2000000x8 .f32 := Host.absf main_arg10
  let main_cst_18 : FVec F S_ .f32 := constant S_ .f32 0x7F800000#32
  let main_v50 : FVec F S2000000x8 .f32 := broadcastInDim S2000000x8 ![] bcast_S_S2000000x8 main_cst_18
  fn_part3 (F := F) main_v48 main_v49 main_v50

def fn_part1 {F : FTy → Type} [FloatOps F] (main_arg4 : FVec F S64x64 .f32) (main_arg5 : FVec F S64 .f32) (main_arg6 : FVec F S32x8 .f32) (main_arg7 : FVec F S32 .f32) (main_arg8 : FVec F S1x32 .f32) (main_arg9 : FVec F S1 .f32) (main_arg10 : FVec F S2000000x8 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x8 .f32 := Host.absf main_arg6
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x64 .f32) (main_arg1 : FVec F S20000x64 .f32) (main_arg2 : FVec F S30000x64 .f32) (main_arg3 : FVec F S100000x64 .f32) (main_arg4 : FVec F S64x64 .f32) (main_arg5 : FVec F S64 .f32) (main_arg6 : FVec F S32x8 .f32) (main_arg7 : FVec F S32 .f32) (main_arg8 : FVec F S1x32 .f32) (main_arg9 : FVec F S1 .f32) (main_arg10 : FVec F S2000000x8 .f32) (main_arg11 : IVec S1000000 32) (main_arg12 : IVec S1000000 32) (main_arg13 : IVec S100000 32) (main_arg14 : IVec S100000 32) (main_arg15 : IVec S4096 32) (main_arg16 : IVec S4096 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S30000x64 .f32 := Host.absf main_arg2
  let main_cst_2 : FVec F S_ .f32 := constant S_ .f32 0x7F800000#32
  let main_v10 : FVec F S30000x64 .f32 := broadcastInDim S30000x64 ![] bcast_S_S30000x64 main_cst_2
  let main_v11 : IVec S30000x64 1 := cmpf .olt main_v9 main_v10
  let main_c_3 : IVec S_ 1 := constantI S_ 1 1#1
  let main_v12 : IVec S_ 1 := (fun x v => Host.reduce IntOp.andi x v reducesTo_S30000x64_S_d0_1 h_S_) main_v11 main_c_3
  let main_v13 : IVec S_ 1 := andi main_v8 main_v12
  let main_v14 : FVec F S100000x64 .f32 := Host.absf main_arg3
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg4 main_arg5 main_arg6 main_arg7 main_arg8 main_arg9 main_arg10 main_v13 main_v16
-- ==== Kernel.lean ====
abbrev S200000x64 : Shape := ⟨2, ![200000, 64]⟩
abbrev S20000x64 : Shape := ⟨2, ![20000, 64]⟩
abbrev S30000x64 : Shape := ⟨2, ![30000, 64]⟩
abbrev S100000x64 : Shape := ⟨2, ![100000, 64]⟩
abbrev S64x64 : Shape := ⟨2, ![64, 64]⟩
abbrev S64 : Shape := ⟨1, ![64]⟩
abbrev S32x8 : Shape := ⟨2, ![32, 8]⟩
abbrev S32 : Shape := ⟨1, ![32]⟩
abbrev S1x32 : Shape := ⟨2, ![1, 32]⟩
abbrev S1 : Shape := ⟨1, ![1]⟩
abbrev S2000000x8 : Shape := ⟨2, ![2000000, 8]⟩
abbrev S1000000 : Shape := ⟨1, ![1000000]⟩
abbrev S100000 : Shape := ⟨1, ![100000]⟩
abbrev S4096 : Shape := ⟨1, ![4096]⟩
abbrev S8x32 : Shape := ⟨2, ![8, 32]⟩
abbrev S32x1 : Shape := ⟨2, ![32, 1]⟩
abbrev S1x1 : Shape := ⟨2, ![1, 1]⟩
abbrev S2000000x1 : Shape := ⟨2, ![2000000, 1]⟩
abbrev S20000x8 : Shape := ⟨2, ![20000, 8]⟩
abbrev S20000x1 : Shape := ⟨2, ![20000, 1]⟩
abbrev S20000x32 : Shape := ⟨2, ![20000, 32]⟩
abbrev S2000000 : Shape := ⟨1, ![2000000]⟩
abbrev S_ : Shape := ⟨0, ![]⟩
abbrev S100000x1 : Shape := ⟨2, ![100000, 1]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩
abbrev S300000x64 : Shape := ⟨2, ![300000, 64]⟩
abbrev S300000 : Shape := ⟨1, ![300000]⟩
abbrev S2000000x64 : Shape := ⟨2, ![2000000, 64]⟩
abbrev S15000x64 : Shape := ⟨2, ![15000, 64]⟩
abbrev S15000 : Shape := ⟨1, ![15000]⟩
abbrev S15000x1 : Shape := ⟨2, ![15000, 1]⟩
abbrev S4096x1 : Shape := ⟨2, ![4096, 1]⟩
abbrev S4096x64 : Shape := ⟨2, ![4096, 64]⟩

abbrev nBuf : Space → Nat
  | .hbm => 185
  | .vmem => 22
  | .smem => 0
  | _ => 0

abbrev hbmTy0_0 (i : Nat) : BufTy := match i % 128 with
  | 0 => ⟨S200000x64, .f32⟩
  | 1 => ⟨S20000x64, .f32⟩
  | 2 => ⟨S30000x64, .f32⟩
  | 3 => ⟨S100000x64, .f32⟩
  | 4 => ⟨S64x64, .f32⟩
  | 5 => ⟨S64, .f32⟩
  | 6 => ⟨S32x8, .f32⟩
  | 7 => ⟨S32, .f32⟩
  | 8 => ⟨S1x32, .f32⟩
  | 9 => ⟨S1, .f32⟩
  | 10 => ⟨S2000000x8, .f32⟩
  | 11 => ⟨S1000000, .i32⟩
  | 12 => ⟨S1000000, .i32⟩
  | 13 => ⟨S100000, .i32⟩
  | 14 => ⟨S100000, .i32⟩
  | 15 => ⟨S4096, .i32⟩
  | 16 => ⟨S4096, .i32⟩
  | 17 => ⟨S8x32, .f32⟩
  | 18 => ⟨S1x32, .f32⟩
  | 19 => ⟨S32x1, .f32⟩
  | 20 => ⟨S1x1, .f32⟩
  | 21 => ⟨S2000000x1, .f32⟩
  | 22 => ⟨S2000000, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x64, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x64, .f32⟩
  | 41 => ⟨S64x64, .f32⟩
  | 42 => ⟨S1x64, .f32⟩
  | 43 => ⟨S100000x64, .f32⟩
  | 44 => ⟨S300000x64, .f32⟩
  | 45 => ⟨S_, .i32⟩
  | 46 => ⟨S1000000, .i32⟩
  | 47 => ⟨S1000000, .i32⟩
  | 48 => ⟨S2000000, .i32⟩
  | 49 => ⟨S2000000, .i32⟩
  | 50 => ⟨S_, .f32⟩
  | 51 => ⟨S300000, .f32⟩
  | 52 => ⟨S2000000x1, .i32⟩
  | 53 => ⟨S300000, .f32⟩
  | 54 => ⟨S_, .f32⟩
  | 55 => ⟨S300000, .f32⟩
  | 56 => ⟨S300000, .i1⟩
  | 57 => ⟨S_, .f32⟩
  | 58 => ⟨S300000, .f32⟩
  | 59 => ⟨S300000, .i1⟩
  | 60 => ⟨S_, .f32⟩
  | 61 => ⟨S_, .f32⟩
  | 62 => ⟨S300000, .f32⟩
  | 63 => ⟨S300000, .f32⟩
  | 64 => ⟨S300000, .f32⟩
  | 65 => ⟨S_, .f32⟩
  | 66 => ⟨S_, .f32⟩
  | 67 => ⟨S300000, .f32⟩
  | 68 => ⟨S300000, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000, .f32⟩
  | 78 => ⟨S2000000, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000, .f32⟩
  | 88 => ⟨S2000000, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x64, .f32⟩
  | 98 => ⟨S2000000x1, .f32⟩
  | 99 => ⟨S2000000x64, .f32⟩
  | 100 => ⟨S2000000x64, .f32⟩
  | 101 => ⟨S_, .f32⟩
  | 102 => ⟨S300000x64, .f32⟩
  | 103 => ⟨S2000000x1, .i32⟩
  | 104 => ⟨S300000x64, .f32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S2000000x1, .i32⟩
  | 113 => ⟨S2000000x64, .f32⟩
  | 114 => ⟨S2000000x1, .f32⟩
  | 115 => ⟨S2000000x64, .f32⟩
  | 116 => ⟨S2000000x64, .f32⟩
  | 117 => ⟨S_, .f32⟩
  | 118 => ⟨S300000x64, .f32⟩
  | 119 => ⟨S2000000x1, .i32⟩
  | 120 => ⟨S300000x64, .f32⟩
  | 121 => ⟨S_, .i32⟩
  | 122 => ⟨S2000000, .i32⟩
  | 123 => ⟨S2000000, .i1⟩
  | 124 => ⟨S_, .i32⟩
  | 125 => ⟨S2000000, .i32⟩
  | 126 => ⟨S2000000, .i32⟩
  | 127 => ⟨S2000000, .i32⟩
  | _ => ⟨S200000x64, .f32⟩

abbrev hbmTy0_1 (i : Nat) : BufTy := match i % 128 with
  | 0 => ⟨S2000000x1, .i32⟩
  | 1 => ⟨S2000000x64, .f32⟩
  | 2 => ⟨S2000000x1, .f32⟩
  | 3 => ⟨S2000000x64, .f32⟩
  | 4 => ⟨S2000000x64, .f32⟩
  | 5 => ⟨S_, .f32⟩
  | 6 => ⟨S300000x64, .f32⟩
  | 7 => ⟨S2000000x1, .i32⟩
  | 8 => ⟨S300000x64, .f32⟩
  | 9 => ⟨S300000x64, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x64, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x64, .f32⟩
  | 31 => ⟨S4096x64, .f32⟩
  | 32 => ⟨S_, .f32⟩
  | 33 => ⟨S4096, .f32⟩
  | 34 => ⟨S4096, .f32⟩
  | 35 => ⟨S4096x64, .f32⟩
  | 36 => ⟨S_, .f32⟩
  | 37 => ⟨S4096, .f32⟩
  | 38 => ⟨S4096, .f32⟩
  | 39 => ⟨S4096x64, .f32⟩
  | 40 => ⟨S_, .f32⟩
  | 41 => ⟨S4096, .f32⟩
  | 42 => ⟨S_, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S4096, .f32⟩
  | 53 => ⟨S_, .f32⟩
  | 54 => ⟨S_, .f32⟩
  | 55 => ⟨S_, .f32⟩
  | 56 => ⟨S_, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S20000x8, .f32⟩
  | .local _ .vmem, ⟨1, _⟩ => ⟨S20000x8, .f32⟩
  | .local _ .vmem, ⟨2, _⟩ => ⟨S8x32, .f32⟩
  | .local _ .vmem, ⟨3, _⟩ => ⟨S1x32, .f32⟩
  | .local _ .vmem, ⟨4, _⟩ => ⟨S32x1, .f32⟩
  | .local _ .vmem, ⟨5, _⟩ => ⟨S1x1, .f32⟩
  | .local _ .vmem, ⟨6, _⟩ => ⟨S20000x1, .f32⟩
  | .local _ .vmem, ⟨7, _⟩ => ⟨S20000x1, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S15000x64, .f32⟩
  | .local _ .vmem, ⟨19, _⟩ => ⟨S15000x64, .f32⟩
  | .local _ .vmem, ⟨20, _⟩ => ⟨S15000x64, .f32⟩
  | .local _ .vmem, ⟨21, _⟩ => ⟨S15000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_10 : Ref sig .tc := ⟨.hbm, 79, rfl⟩
abbrev main_v46 : Ref sig .tc := ⟨.hbm, 80, rfl⟩
abbrev main_v47 : Ref sig .tc := ⟨.hbm, 81, rfl⟩
abbrev main_c_11 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_12 : Ref sig .tc := ⟨.hbm, 89, rfl⟩
abbrev main_v54 : Ref sig .tc := ⟨.hbm, 90, rfl⟩
abbrev main_v55 : Ref sig .tc := ⟨.hbm, 91, rfl⟩
abbrev main_c_13 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_c_19 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_c_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_23 : Ref sig .tc := ⟨.hbm, 147, rfl⟩
abbrev main_v101 : Ref sig .tc := ⟨.hbm, 148, rfl⟩
abbrev main_v102 : Ref sig .tc := ⟨.hbm, 149, rfl⟩
abbrev main_c_24 : Ref sig .tc := ⟨.hbm, 150, rfl⟩
abbrev main_v103 : Ref sig .tc := ⟨.hbm, 151, rfl⟩
abbrev main_v104 : Ref sig .tc := ⟨.hbm, 152, rfl⟩
abbrev main_c_25 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_26 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_28 : Ref sig .tc := ⟨.hbm, 168, rfl⟩
abbrev main_v117 : Ref sig .tc := ⟨.hbm, 169, rfl⟩
abbrev main_cst_29 : Ref sig .tc := ⟨.hbm, 170, rfl⟩
abbrev main_v118 : Ref sig .tc := ⟨.hbm, 171, rfl⟩
abbrev main_v119 : Ref sig .tc := ⟨.hbm, 172, rfl⟩
abbrev main_cst_30 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_31 : Ref sig .tc := ⟨.hbm, 178, rfl⟩
abbrev main_v124 : Ref sig .tc := ⟨.hbm, 179, rfl⟩
abbrev main_v125 : Ref sig .tc := ⟨.hbm, 180, rfl⟩
abbrev main_cst_32 : Ref sig .tc := ⟨.hbm, 181, rfl⟩
abbrev main_v126 : Ref sig .tc := ⟨.hbm, 182, rfl⟩
abbrev main_cst_33 : Ref sig .tc := ⟨.hbm, 183, rfl⟩
abbrev main_v127 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S15000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S15000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  transposes_S32x8_S8x32_1_0 : S32x8.Transposes [1, 0] S8x32
  shapeCasts_S32_S1x32 : S32.ShapeCasts S1x32
  transposes_S1x32_S32x1_1_0 : S1x32.Transposes [1, 0] S32x1
  shapeCasts_S1_S1x1 : S1.ShapeCasts S1x1
  inb_S20000x8_S20000x8_0_0 : ∀ a, (![0, 0] : Fin 2 → Nat) a + S20000x8.size a ≤ S20000x8.size a
  h_S20000x8 : 0 < S20000x8.numel
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x32_S20000x32 : S1x32.Broadcasts S20000x32
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S2000000x1_S2000000 : S2000000x1.ShapeCasts S2000000
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  concatenates_S200000x64_S100000x64_S300000x64_d0 : Shape.Concatenates [S200000x64, S100000x64] S300000x64 0
  bcast_S_S1000000 : S_.BroadcastsInDim S1000000 (![] : Fin 0 → Fin S1000000.rank)
  concatenates_S1000000_S1000000_S2000000_d0 : Shape.Concatenates [S1000000, S1000000] S2000000 0
  bcast_S_S300000 : S_.BroadcastsInDim S300000 (![] : Fin 0 → Fin S300000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  inb_S15000x64_S15000x64_0_0 : ∀ a, (![0, 0] : Fin 2 → Nat) a + S15000x64.size a ≤ S15000x64.size a
  h_S15000x64 : 0 < S15000x64.numel
  shapeCasts_S15000x64_S15000x64 : S15000x64.ShapeCasts S15000x64
  reduces_S15000x64_S15000 : S15000x64.Reduces [1] S15000
  shapeCasts_S15000_S15000x1 : S15000.ShapeCasts S15000x1
  broadcasts_S15000x1_S15000x64 : S15000x1.Broadcasts S15000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096_S_d0 : S4096.ReducesTo [0] S_
  dot_S20000x8_S8x32_S20000x32_1_0_0_1_n_n_wf : DotDims.WF S20000x8 S8x32 S20000x32 [1] [0] [0] [1] [] []
  dot_S20000x32_S32x1_S20000x1_1_0_0_1_n_n_wf : DotDims.WF S20000x32 S32x1 S20000x1 [1] [0] [0] [1] [] []
  gather_S20000x64_S100000x1_S100000x64_1_0_n_n_0_1_164_wf : GatherDims.WF S20000x64 S100000x1 S100000x64 [1] [0] [] [0] [] 1 ![1, 64]
  gather_S30000x64_S100000x1_S100000x64_1_0_n_n_0_1_164_wf : GatherDims.WF S30000x64 S100000x1 S100000x64 [1] [0] [] [0] [] 1 ![1, 64]
  dot_S2000x64_S64x64_S2000x64_1_0_0_1_n_n_wf : DotDims.WF S2000x64 S64x64 S2000x64 [1] [0] [0] [1] [] []
  scatter_S300000_S2000000x1_S2000000_n_0_0_1_wf : ScatterDims.WF S300000 S2000000x1 S2000000 [] [0] [0] 1
  gather_S300000_S2000000x1_S2000000_n_0_n_n_0_1_1_wf : GatherDims.WF S300000 S2000000x1 S2000000 [] [0] [] [0] [] 1 ![1]
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  gather_S300000x64_S4096x1_S4096x64_1_0_n_n_0_1_164_wf : GatherDims.WF S300000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x8.size a ≤ S2000000x8.size a
  hwx0_0 : ∀ i : grid0.Coords, EltTy.bits .f32 = 32 ∨ (Rect.block (s := S2000000x8) S20000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x1.size a ≤ S2000000x1.size a
  hwx0_5 : ∀ i : grid0.Coords, EltTy.bits .f32 = 32 ∨ (Rect.block (s := S2000000x1) S20000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S15000x64.size a ≤ S300000x64.size a
  hwx2_0 : ∀ i : grid2.Coords, EltTy.bits .f32 = 32 ∨ (Rect.block (s := S300000x64) S15000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S15000x64.size a ≤ S300000x64.size a
  hwx2_1 : ∀ i : grid2.Coords, EltTy.bits .f32 = 32 ∨ (Rect.block (s := S300000x64) S15000x64.size (cc2_transform_1 i) (hinb2_1 i)).WholeWords (EltTy.packing .f32)

variable [Facts₀]

def dot_S20000x8_S8x32_S20000x32_1_0_0_1_n_n : DotDims S20000x8 S8x32 S20000x32 where
  lhsContracting := [1]
  rhsContracting := [0]
  lhsNonContracting := [0]
  rhsNonContracting := [1]
  lhsBatch := []
  rhsBatch := []
  wf := dot_S20000x8_S8x32_S20000x32_1_0_0_1_n_n_wf
def dot_S20000x32_S32x1_S20000x1_1_0_0_1_n_n : DotDims S20000x32 S32x1 S20000x1 where
  lhsContracting := [1]
  rhsContracting := [0]
  lhsNonContracting := [0]
  rhsNonContracting := [1]
  lhsBatch := []
  rhsBatch := []
  wf := dot_S20000x32_S32x1_S20000x1_1_0_0_1_n_n_wf
def gather_S20000x64_S100000x1_S100000x64_1_0_n_n_0_1_164 : GatherDims S20000x64 S100000x1 S100000x64 where
  offsetDims := [1]
  collapsedSliceDims := [0]
  operandBatchingDims := []
  startIndicesBatchingDims := []
  startIndexMap := [0]
  indexVectorDim := 1
  sliceSizes := ![1, 64]
  wf := gather_S20000x64_S100000x1_S100000x64_1_0_n_n_0_1_164_wf
def gather_S30000x64_S100000x1_S100000x64_1_0_n_n_0_1_164 : GatherDims S30000x64 S100000x1 S100000x64 where
  offsetDims := [1]
  collapsedSliceDims := [0]
  operandBatchingDims := []
  startIndicesBatchingDims := []
  startIndexMap := [0]
  indexVectorDim := 1
  sliceSizes := ![1, 64]
  wf := gather_S30000x64_S100000x1_S100000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S300000_S2000000x1_S2000000_n_0_0_1 : ScatterDims S300000 S2000000x1 S2000000 where
  updateWindowDims := []
  insertedWindowDims := [0]
  scatterDimsToOperandDims := [0]
  indexVectorDim := 1
  wf := scatter_S300000_S2000000x1_S2000000_n_0_0_1_wf
def gather_S300000_S2000000x1_S2000000_n_0_n_n_0_1_1 : GatherDims S300000 S2000000x1 S2000000 where
  offsetDims := []
  collapsedSliceDims := [0]
  operandBatchingDims := []
  startIndicesBatchingDims := []
  startIndexMap := [0]
  indexVectorDim := 1
  sliceSizes := ![1]
  wf := gather_S300000_S2000000x1_S2000000_n_0_n_n_0_1_1_wf
def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def gather_S300000x64_S4096x1_S4096x64_1_0_n_n_0_1_164 : GatherDims S300000x64 S4096x1 S4096x64 where
  offsetDims := [1]
  collapsedSliceDims := [0]
  operandBatchingDims := []
  startIndicesBatchingDims := []
  startIndexMap := [0]
  indexVectorDim := 1
  sliceSizes := ![1, 64]
  wf := gather_S300000x64_S4096x1_S4096x64_1_0_n_n_0_1_164_wf

abbrev win0_0 : Pipeline.Window sig grid0 :=
  Pipeline.Window.ofSpec (Memref.whole main_arg10) S20000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S20000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v92) S15000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S15000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S200000x64 : Shape := ⟨2, ![200000, 64]⟩
abbrev S20000x64 : Shape := ⟨2, ![20000, 64]⟩
abbrev S30000x64 : Shape := ⟨2, ![30000, 64]⟩
abbrev S100000x64 : Shape := ⟨2, ![100000, 64]⟩
abbrev S64x64 : Shape := ⟨2, ![64, 64]⟩
abbrev S64 : Shape := ⟨1, ![64]⟩
abbrev S32x8 : Shape := ⟨2, ![32, 8]⟩
abbrev S32 : Shape := ⟨1, ![32]⟩
abbrev S1x32 : Shape := ⟨2, ![1, 32]⟩
abbrev S1 : Shape := ⟨1, ![1]⟩
abbrev S2000000x8 : Shape := ⟨2, ![2000000, 8]⟩
abbrev S1000000 : Shape := ⟨1, ![1000000]⟩
abbrev S100000 : Shape := ⟨1, ![100000]⟩
abbrev S4096 : Shape := ⟨1, ![4096]⟩
abbrev S8x32 : Shape := ⟨2, ![8, 32]⟩
abbrev S2000000x32 : Shape := ⟨2, ![2000000, 32]⟩
abbrev S_ : Shape := ⟨0, ![]⟩
abbrev S32x1 : Shape := ⟨2, ![32, 1]⟩
abbrev S2000000x1 : Shape := ⟨2, ![2000000, 1]⟩
abbrev S1x1 : Shape := ⟨2, ![1, 1]⟩
abbrev S2000000 : Shape := ⟨1, ![2000000]⟩
abbrev S100000x1 : Shape := ⟨2, ![100000, 1]⟩
abbrev S1x64 : Shape := ⟨2, ![1, 64]⟩
abbrev S300000x64 : Shape := ⟨2, ![300000, 64]⟩
abbrev S300000 : Shape := ⟨1, ![300000]⟩
abbrev S2000000x64 : Shape := ⟨2, ![2000000, 64]⟩
abbrev S300000x1 : Shape := ⟨2, ![300000, 1]⟩
abbrev S4096x1 : Shape := ⟨2, ![4096, 1]⟩
abbrev S4096x64 : Shape := ⟨2, ![4096, 64]⟩

abbrev nBuf : Space → Nat
  | .hbm => 224
  | .vmem => 0
  | .smem => 0
  | _ => 0

abbrev hbmTy0_0 (i : Nat) : BufTy := match i % 128 with
  | 0 => ⟨S200000x64, .f32⟩
  | 1 => ⟨S20000x64, .f32⟩
  | 2 => ⟨S30000x64, .f32⟩
  | 3 => ⟨S100000x64, .f32⟩
  | 4 => ⟨S64x64, .f32⟩
  | 5 => ⟨S64, .f32⟩
  | 6 => ⟨S32x8, .f32⟩
  | 7 => ⟨S32, .f32⟩
  | 8 => ⟨S1x32, .f32⟩
  | 9 => ⟨S1, .f32⟩
  | 10 => ⟨S2000000x8, .f32⟩
  | 11 => ⟨S1000000, .i32⟩
  | 12 => ⟨S1000000, .i32⟩
  | 13 => ⟨S100000, .i32⟩
  | 14 => ⟨S100000, .i32⟩
  | 15 => ⟨S4096, .i32⟩
  | 16 => ⟨S4096, .i32⟩
  | 17 => ⟨S8x32, .f32⟩
  | 18 => ⟨S2000000x32, .f32⟩
  | 19 => ⟨S1x32, .f32⟩
  | 20 => ⟨S2000000x32, .f32⟩
  | 21 => ⟨S2000000x32, .f32⟩
  | 22 => ⟨S_, .f32⟩
  | 23 => ⟨S2000000x32, .f32⟩
  | 24 => ⟨S2000000x32, .f32⟩
  | 25 => ⟨S32x1, .f32⟩
  | 26 => ⟨S2000000x1, .f32⟩
  | 27 => ⟨S1x1, .f32⟩
  | 28 => ⟨S2000000x1, .f32⟩
  | 29 => ⟨S2000000x1, .f32⟩
  | 30 => ⟨S2000000x1, .f32⟩
  | 31 => ⟨S2000000x1, .f32⟩
  | 32 => ⟨S_, .f32⟩
  | 33 => ⟨S2000000x1, .f32⟩
  | 34 => ⟨S2000000x1, .f32⟩
  | 35 => ⟨S_, .f32⟩
  | 36 => ⟨S2000000x1, .f32⟩
  | 37 => ⟨S2000000x1, .f32⟩
  | 38 => ⟨S2000000, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x64, .f32⟩
  | 48 => ⟨S100000x64, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x64, .f32⟩
  | 58 => ⟨S100000x64, .f32⟩
  | 59 => ⟨S64x64, .f32⟩
  | 60 => ⟨S100000x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S100000, .f32⟩
  | 67 => ⟨S100000x1, .f32⟩
  | 68 => ⟨S100000x1, .f32⟩
  | 69 => ⟨S_, .f32⟩
  | 70 => ⟨S100000x1, .f32⟩
  | 71 => ⟨S100000x1, .f32⟩
  | 72 => ⟨S100000x64, .f32⟩
  | 73 => ⟨S100000x64, .f32⟩
  | 74 => ⟨S300000x64, .f32⟩
  | 75 => ⟨S_, .i32⟩
  | 76 => ⟨S1000000, .i32⟩
  | 77 => ⟨S1000000, .i32⟩
  | 78 => ⟨S2000000, .i32⟩
  | 79 => ⟨S2000000, .i32⟩
  | 80 => ⟨S_, .f32⟩
  | 81 => ⟨S300000, .f32⟩
  | 82 => ⟨S2000000x1, .i32⟩
  | 83 => ⟨S300000, .f32⟩
  | 84 => ⟨S_, .f32⟩
  | 85 => ⟨S300000, .f32⟩
  | 86 => ⟨S300000, .i1⟩
  | 87 => ⟨S_, .f32⟩
  | 88 => ⟨S300000, .f32⟩
  | 89 => ⟨S300000, .i1⟩
  | 90 => ⟨S_, .f32⟩
  | 91 => ⟨S_, .f32⟩
  | 92 => ⟨S300000, .f32⟩
  | 93 => ⟨S300000, .f32⟩
  | 94 => ⟨S300000, .f32⟩
  | 95 => ⟨S_, .f32⟩
  | 96 => ⟨S_, .f32⟩
  | 97 => ⟨S300000, .f32⟩
  | 98 => ⟨S300000, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000, .f32⟩
  | 108 => ⟨S2000000, .f32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000, .f32⟩
  | 118 => ⟨S2000000, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S200000x64, .f32⟩

abbrev hbmTy0_1 (i : Nat) : BufTy := match i % 128 with
  | 0 => ⟨S2000000x1, .f32⟩
  | 1 => ⟨S2000000x64, .f32⟩
  | 2 => ⟨S2000000x64, .f32⟩
  | 3 => ⟨S_, .f32⟩
  | 4 => ⟨S300000x64, .f32⟩
  | 5 => ⟨S2000000x1, .i32⟩
  | 6 => ⟨S300000x64, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x1, .f32⟩
  | 17 => ⟨S2000000x64, .f32⟩
  | 18 => ⟨S2000000x64, .f32⟩
  | 19 => ⟨S_, .f32⟩
  | 20 => ⟨S300000x64, .f32⟩
  | 21 => ⟨S2000000x1, .i32⟩
  | 22 => ⟨S300000x64, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x1, .f32⟩
  | 33 => ⟨S2000000x64, .f32⟩
  | 34 => ⟨S2000000x64, .f32⟩
  | 35 => ⟨S_, .f32⟩
  | 36 => ⟨S300000x64, .f32⟩
  | 37 => ⟨S2000000x1, .i32⟩
  | 38 => ⟨S300000x64, .f32⟩
  | 39 => ⟨S300000x64, .f32⟩
  | 40 => ⟨S_, .f32⟩
  | 41 => ⟨S300000, .f32⟩
  | 42 => ⟨S300000x1, .f32⟩
  | 43 => ⟨S300000x1, .f32⟩
  | 44 => ⟨S_, .f32⟩
  | 45 => ⟨S300000x1, .f32⟩
  | 46 => ⟨S300000x1, .f32⟩
  | 47 => ⟨S300000x64, .f32⟩
  | 48 => ⟨S300000x64, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x64, .f32⟩
  | 58 => ⟨S_, .i32⟩
  | 59 => ⟨S4096, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x64, .f32⟩
  | 70 => ⟨S4096x64, .f32⟩
  | 71 => ⟨S_, .f32⟩
  | 72 => ⟨S4096, .f32⟩
  | 73 => ⟨S4096, .f32⟩
  | 74 => ⟨S4096x64, .f32⟩
  | 75 => ⟨S_, .f32⟩
  | 76 => ⟨S4096, .f32⟩
  | 77 => ⟨S4096, .f32⟩
  | 78 => ⟨S4096x64, .f32⟩
  | 79 => ⟨S_, .f32⟩
  | 80 => ⟨S4096, .f32⟩
  | 81 => ⟨S_, .f32⟩
  | 82 => ⟨S4096, .f32⟩
  | 83 => ⟨S4096, .f32⟩
  | 84 => ⟨S_, .f32⟩
  | 85 => ⟨S4096, .f32⟩
  | 86 => ⟨S4096, .f32⟩
  | 87 => ⟨S4096, .f32⟩
  | 88 => ⟨S4096, .f32⟩
  | 89 => ⟨S_, .f32⟩
  | 90 => ⟨S4096, .f32⟩
  | 91 => ⟨S4096, .f32⟩
  | 92 => ⟨S_, .f32⟩
  | 93 => ⟨S_, .f32⟩
  | 94 => ⟨S_, .f32⟩
  | 95 => ⟨S_, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_call1_v0 : Ref sig .tc := ⟨.hbm, 91, rfl⟩
abbrev main_call1_v1 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_v61 : Ref sig .tc := ⟨.hbm, 98, rfl⟩
abbrev main_c_12 : Ref sig .tc := ⟨.hbm, 99, rfl⟩
abbrev main_v62 : Ref sig .tc := ⟨.hbm, 100, rfl⟩
abbrev main_v63 : Ref sig .tc := ⟨.hbm, 101, rfl⟩
abbrev main_c_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_14 : Ref sig .tc := ⟨.hbm, 109, rfl⟩
abbrev main_v70 : Ref sig .tc := ⟨.hbm, 110, rfl⟩
abbrev main_v71 : Ref sig .tc := ⟨.hbm, 111, rfl⟩
abbrev main_c_15 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_16 : Ref sig .tc := ⟨.hbm, 119, rfl⟩
abbrev main_v78 : Ref sig .tc := ⟨.hbm, 120, rfl⟩
abbrev main_v79 : Ref sig .tc := ⟨.hbm, 121, rfl⟩
abbrev main_c_17 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_18 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_19 : Ref sig .tc := ⟨.hbm, 135, rfl⟩
abbrev main_v91 : Ref sig .tc := ⟨.hbm, 136, rfl⟩
abbrev main_v92 : Ref sig .tc := ⟨.hbm, 137, rfl⟩
abbrev main_c_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_22 : Ref sig .tc := ⟨.hbm, 151, rfl⟩
abbrev main_v104 : Ref sig .tc := ⟨.hbm, 152, rfl⟩
abbrev main_v105 : Ref sig .tc := ⟨.hbm, 153, rfl⟩
abbrev main_c_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_24 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_25 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_26 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_c_27 : Ref sig .tc := ⟨.hbm, 177, rfl⟩
abbrev main_v125 : Ref sig .tc := ⟨.hbm, 178, rfl⟩
abbrev main_v126 : Ref sig .tc := ⟨.hbm, 179, rfl⟩
abbrev main_c_28 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_c_29 : Ref sig .tc := ⟨.hbm, 186, rfl⟩
abbrev main_v132 : Ref sig .tc := ⟨.hbm, 187, rfl⟩
abbrev main_v133 : Ref sig .tc := ⟨.hbm, 188, rfl⟩
abbrev main_c_30 : Ref sig .tc := ⟨.hbm, 189, rfl⟩
abbrev main_v134 : Ref sig .tc := ⟨.hbm, 190, rfl⟩
abbrev main_v135 : Ref sig .tc := ⟨.hbm, 191, rfl⟩
abbrev main_c_31 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_32 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_33 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_34 : Ref sig .tc := ⟨.hbm, 207, rfl⟩
abbrev main_v148 : Ref sig .tc := ⟨.hbm, 208, rfl⟩
abbrev main_cst_35 : Ref sig .tc := ⟨.hbm, 209, rfl⟩
abbrev main_v149 : Ref sig .tc := ⟨.hbm, 210, rfl⟩
abbrev main_v150 : Ref sig .tc := ⟨.hbm, 211, rfl⟩
abbrev main_cst_36 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_37 : Ref sig .tc := ⟨.hbm, 217, rfl⟩
abbrev main_v155 : Ref sig .tc := ⟨.hbm, 218, rfl⟩
abbrev main_v156 : Ref sig .tc := ⟨.hbm, 219, rfl⟩
abbrev main_cst_38 : Ref sig .tc := ⟨.hbm, 220, rfl⟩
abbrev main_v157 : Ref sig .tc := ⟨.hbm, 221, rfl⟩
abbrev main_cst_39 : Ref sig .tc := ⟨.hbm, 222, rfl⟩
abbrev main_v158 : Ref sig .tc := ⟨.hbm, 223, rfl⟩

abbrev nD : Nat := 1
abbrev τ : Topo := Topo.v7x

variable {F : FTy → Type} [FloatOps F]

class Facts₀ : Prop where
  transposes_S32x8_S8x32_1_0 : S32x8.Transposes [1, 0] S8x32
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  transposes_S1x32_S32x1_1_0 : S1x32.Transposes [1, 0] S32x1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  shapeCasts_S2000000x1_S2000000 : S2000000x1.ShapeCasts S2000000
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S200000x64_S100000x64_S300000x64_d0 : Shape.Concatenates [S200000x64, S100000x64] S300000x64 0
  bcast_S_S1000000 : S_.BroadcastsInDim S1000000 (![] : Fin 0 → Fin S1000000.rank)
  concatenates_S1000000_S1000000_S2000000_d0 : Shape.Concatenates [S1000000, S1000000] S2000000 0
  bcast_S_S300000 : S_.BroadcastsInDim S300000 (![] : Fin 0 → Fin S300000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  reducesTo_S300000x64_S300000_d1 : S300000x64.ReducesTo [1] S300000
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  reducesTo_S4096_S_d0 : S4096.ReducesTo [0] S_
  dot_S2000000x8_S8x32_S2000000x32_1_0_0_1_n_n_wf : DotDims.WF S2000000x8 S8x32 S2000000x32 [1] [0] [0] [1] [] []
  dot_S2000000x32_S32x1_S2000000x1_1_0_0_1_n_n_wf : DotDims.WF S2000000x32 S32x1 S2000000x1 [1] [0] [0] [1] [] []
  gather_S20000x64_S100000x1_S100000x64_1_0_n_n_0_1_164_wf : GatherDims.WF S20000x64 S100000x1 S100000x64 [1] [0] [] [0] [] 1 ![1, 64]
  gather_S30000x64_S100000x1_S100000x64_1_0_n_n_0_1_164_wf : GatherDims.WF S30000x64 S100000x1 S100000x64 [1] [0] [] [0] [] 1 ![1, 64]
  dot_S100000x64_S64x64_S100000x64_1_0_0_1_n_n_wf : DotDims.WF S100000x64 S64x64 S100000x64 [1] [0] [0] [1] [] []
  scatter_S300000_S2000000x1_S2000000_n_0_0_1_wf : ScatterDims.WF S300000 S2000000x1 S2000000 [] [0] [0] 1
  gather_S300000_S2000000x1_S2000000_n_0_n_n_0_1_1_wf : GatherDims.WF S300000 S2000000x1 S2000000 [] [0] [] [0] [] 1 ![1]
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  gather_S300000x64_S4096x1_S4096x64_1_0_n_n_0_1_164_wf : GatherDims.WF S300000x64 S4096x1 S4096x64 [1] [0] [] [0] [] 1 ![1, 64]

variable [Facts₀]

def dot_S2000000x8_S8x32_S2000000x32_1_0_0_1_n_n : DotDims S2000000x8 S8x32 S2000000x32 where
  lhsContracting := [1]
  rhsContracting := [0]
  lhsNonContracting := [0]
  rhsNonContracting := [1]
  lhsBatch := []
  rhsBatch := []
  wf := dot_S2000000x8_S8x32_S2000000x32_1_0_0_1_n_n_wf
def dot_S2000000x32_S32x1_S2000000x1_1_0_0_1_n_n : DotDims S2000000x32 S32x1 S2000000x1 where
  lhsContracting := [1]
  rhsContracting := [0]
  lhsNonContracting := [0]
  rhsNonContracting := [1]
  lhsBatch := []
  rhsBatch := []
  wf := dot_S2000000x32_S32x1_S2000000x1_1_0_0_1_n_n_wf
def gather_S20000x64_S100000x1_S100000x64_1_0_n_n_0_1_164 : GatherDims S20000x64 S100000x1 S100000x64 where
  offsetDims := [1]
  collapsedSliceDims := [0]
  operandBatchingDims := []
  startIndicesBatchingDims := []
  startIndexMap := [0]
  indexVectorDim := 1
  sliceSizes := ![1, 64]
  wf := gather_S20000x64_S100000x1_S100000x64_1_0_n_n_0_1_164_wf
def gather_S30000x64_S100000x1_S100000x64_1_0_n_n_0_1_164 : GatherDims S30000x64 S100000x1 S100000x64 where
  offsetDims := [1]
  collapsedSliceDims := [0]
  operandBatchingDims := []
  startIndicesBatchingDims := []
  startIndexMap := [0]
  indexVectorDim := 1
  sliceSizes := ![1, 64]
  wf := gather_S30000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S300000_S2000000x1_S2000000_n_0_0_1 : ScatterDims S300000 S2000000x1 S2000000 where
  updateWindowDims := []
  insertedWindowDims := [0]
  scatterDimsToOperandDims := [0]
  indexVectorDim := 1
  wf := scatter_S300000_S2000000x1_S2000000_n_0_0_1_wf
def gather_S300000_S2000000x1_S2000000_n_0_n_n_0_1_1 : GatherDims S300000 S2000000x1 S2000000 where
  offsetDims := []
  collapsedSliceDims := [0]
  operandBatchingDims := []
  startIndicesBatchingDims := []
  startIndexMap := [0]
  indexVectorDim := 1
  sliceSizes := ![1]
  wf := gather_S300000_S2000000x1_S2000000_n_0_n_n_0_1_1_wf
def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def gather_S300000x64_S4096x1_S4096x64_1_0_n_n_0_1_164 : GatherDims S300000x64 S4096x1 S4096x64 where
  offsetDims := [1]
  collapsedSliceDims := [0]
  operandBatchingDims := []
  startIndicesBatchingDims := []
  startIndexMap := [0]
  indexVectorDim := 1
  sliceSizes := ![1, 64]
  wf := gather_S300000x64_S4096x1_S4096x64_1_0_n_n_0_1_164_wf

class Facts : Prop extends Facts₀ where

variable [Facts]
-- ==== Proof.RefRun.lean ====
/-
  The reference program's run, with its two results stated as the reference's stages of the launch
  arguments.

  The reference's @main is a straight line of host operations, so every weakly fair execution
  terminates with each buffer at the fold of the operations' results over its launch contents (the
  library's run of a straight line). Read at the two result buffers, the fold is the composition
  the stage functions name one operation at a time: the rows of the row-normalised node table at the
  users asked for, and the mean over those users of one minus the cosine between the user's row and
  its positive item's row. No operation writes an argument.
-/
import proofs.«163263_j64476049047989_2_alg».proof.Proof.RefOps
import proofs.«163263_j64476049047989_2_alg».proof.Proof.RefStages

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.ReadP (val_main_v131 val_main_v158)

variable {F : FTy → Type} [FloatOps F]

set_option maxHeartbeats 8000000 in
/-- The first result buffer after the operations, from the launch contents. -/
theorem after_v131 (m : (ℓ : Loc nD τ sig) → Buf (Elt F) ℓ) (c : Dev nD) :
    after (ops (F := F)) (launchContents m c) (Proc.devRef .tc main_v131)
      = val_main_v131 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  after_results_simp
  rfl

set_option maxHeartbeats 8000000 in
/-- The second result buffer after the operations, from the launch contents. -/
theorem after_v158 (m : (ℓ : Loc nD τ sig) → Buf (Elt F) ℓ) (c : Dev nD) :
    after (ops (F := F)) (launchContents m c) (Proc.devRef .tc main_v158)
      = val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  after_results_simp
  rfl

set_option maxHeartbeats 8000000 in
/-- No operation writes an argument. -/
theorem after_arg (m : (ℓ : Loc nD τ sig) → Buf (Elt F) ℓ) (c : Dev nD) :
    after (ops (F := F)) (launchContents m c) (Proc.devRef .tc main_arg0) = m ((c.tc : Thread nD τ).loc main_arg0) ∧
    after (ops (F := F)) (launchContents m c) (Proc.devRef .tc main_arg1) = m ((c.tc : Thread nD τ).loc main_arg1) ∧
    after (ops (F := F)) (launchContents m c) (Proc.devRef .tc main_arg2) = m ((c.tc : Thread nD τ).loc main_arg2) ∧
    after (ops (F := F)) (launchContents m c) (Proc.devRef .tc main_arg3) = m ((c.tc : Thread nD τ).loc main_arg3) ∧
    after (ops (F := F)) (launchContents m c) (Proc.devRef .tc main_arg4) = m ((c.tc : Thread nD τ).loc main_arg4) ∧
    after (ops (F := F)) (launchContents m c) (Proc.devRef .tc main_arg5) = m ((c.tc : Thread nD τ).loc main_arg5) ∧
    after (ops (F := F)) (launchContents m c) (Proc.devRef .tc main_arg6) = m ((c.tc : Thread nD τ).loc main_arg6) ∧
    after (ops (F := F)) (launchContents m c) (Proc.devRef .tc main_arg7) = m ((c.tc : Thread nD τ).loc main_arg7) ∧
    after (ops (F := F)) (launchContents m c) (Proc.devRef .tc main_arg8) = m ((c.tc : Thread nD τ).loc main_arg8) ∧
    after (ops (F := F)) (launchContents m c) (Proc.devRef .tc main_arg9) = m ((c.tc : Thread nD τ).loc main_arg9) ∧
    after (ops (F := F)) (launchContents m c) (Proc.devRef .tc main_arg10) = m ((c.tc : Thread nD τ).loc main_arg10) ∧
    after (ops (F := F)) (launchContents m c) (Proc.devRef .tc main_arg11) = m ((c.tc : Thread nD τ).loc main_arg11) ∧
    after (ops (F := F)) (launchContents m c) (Proc.devRef .tc main_arg12) = m ((c.tc : Thread nD τ).loc main_arg12) ∧
    after (ops (F := F)) (launchContents m c) (Proc.devRef .tc main_arg13) = m ((c.tc : Thread nD τ).loc main_arg13) ∧
    after (ops (F := F)) (launchContents m c) (Proc.devRef .tc main_arg14) = m ((c.tc : Thread nD τ).loc main_arg14) ∧
    after (ops (F := F)) (launchContents m c) (Proc.devRef .tc main_arg15) = m ((c.tc : Thread nD τ).loc main_arg15) ∧
    after (ops (F := F)) (launchContents m c) (Proc.devRef .tc main_arg16) = m ((c.tc : Thread nD τ).loc main_arg16) := by
  refine ⟨?_, ?_, ?_, ?_, ?_, ?_, ?_, ?_, ?_, ?_, ?_, ?_, ?_, ?_, ?_, ?_, ?_⟩ <;> (after_results_simp <;> rfl)

/-- On every device, from any memory with zero counters: every weakly fair execution of @main
    terminates, nothing faulting, with the two results at the reference's stages of the launch
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131) = val_main_v131 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v158) = val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
      obtain ⟨a0, a1, a2, a3, a4, a5, a6, a7, a8, a9, a10, a11, a12, a13, a14, a15, a16⟩ := after_arg (F := F) m c
      exact ⟨(h c main_v131).trans (after_v131 m c), (h c main_v158).trans (after_v158 m c),
        (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14, (h c main_arg15).trans a15, (h c main_arg16).trans a16⟩)
    (run_seq scopedRefs_eq scopedSems_eq defs main (fun _ => ops) main_eq (fun _ => ops_sub) m ρ)

end Cert.ReferenceIdeal.Whole

end
-- ==== Proof.KernelRun.lean ====
/-
  The idealized kernel program's run with its whole final memory named.

  @main is eleven segments: four stretches of host operations before, between and after three
  pallas_call regions (the middle stretch is printed in five pieces). Every weakly fair execution
  ends, without a fault, with every buffer that outlives the call at the contents obtained by
  folding the segments over the launch memory: a host stretch applies its operations in order, a
  region replaces its output array by what its grid points wrote back and leaves the rest. The
  fold's last stage is the generated frame module's `Gen.W11`; the frame theorem there keeps of it
  only that the arguments are unchanged, and here the same launch theorem of the library is used
  with the whole of it as the post, so that the two results can be read off afterwards.
-/
import proofs.«163263_j64476049047989_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not
    scoped to a region ends at the last stage of the fold of the segments over the launch memory. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- A buffer of @main that is not scoped to a region, read in a final state of the run. -/
theorem final_at {r : PUnit × MemSt nD τ sig (Elt F)}
    (h : ∀ c : Dev nD, ∀ b ∈ Pipeline.ucRefs τ sig, r.2.mem (((c : Thread nD τ)).1, b) = W11 m ρ c b)
    (c : Dev nD) (b : Ref sig .tc) (hb : ¬ (Proc.devRef .tc b : DevRef τ sig).isScoped) :
    r.2.mem ((c.tc : Thread nD τ).loc b) = W11 m ρ c (Proc.devRef .tc b) :=
  h c _ (mem_uc b hb)

end Cert.KernelIdeal.Whole

end
-- ==== Proof.HostBefore.lean ====
/-
  The kernel program's host operations before the first region and between the first two, read
  against the reference's stages.

  Each lemma is about one stretch of host operations started from ANY buffer contents `W`: given
  what `W` holds at the buffers the stretch reads, the buffer it writes ends at the reference's
  stage of the same arguments. The two transposes and the two row gathers are the reference's own
  operations. The three bias recasts differ in spelling only: the kernel program reshapes a vector
  of `a` entries to a `1 × a` row where the reference broadcasts it into that row, and both read,
  at `(0, i)`, the vector's entry `i`.
-/
import proofs.«163263_j64476049047989_2_alg».proof.Proof.Gen.KernelIdeal.Launch
import proofs.«163263_j64476049047989_2_alg».proof.Proof.RefStages
import Idealize.ShloMosaic.Lib.ValueLayout
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.ReadP (val_main_v0 val_main_v2 val_main_v6 val_main_v8 val_main_v16 val_main_v17 val_main_v24
  val_main_v32 val_main_v34 val_main_v36 val_main_v2_apply val_main_v8_apply val_main_v36_apply)

variable (W : Valuation τ sig (Elt Ideal))

/-! ## A vector recast as a one-row matrix -/

/-- A vector of `a` entries reshaped to `1 × a` is the vector broadcast along a new leading unit axis. -/
theorem row_of_vector {a : ℕ} (x : (⟨1, ![a]⟩ : Shape).Idx → EReal)
    (h : (⟨1, ![a]⟩ : Shape).ShapeCasts ⟨2, ![1, a]⟩)
    (hb : (⟨1, ![a]⟩ : Shape).BroadcastsInDim ⟨2, ![1, a]⟩ ![1]) :
    (fun i => shapeCast ⟨2, ![1, a]⟩ x h i) = broadcastInDim ⟨2, ![1, a]⟩ ![1] hb x := by
  funext i
  obtain ⟨u, j, rfl⟩ : ∃ (u : Fin 1) (j : Fin a), i = ix2 u j := ⟨i 0, i 1, eq_ix2 i⟩
  refine (shapeCast_a_1a_apply x h u j).trans ?_
  refine (broadcastInDim_apply _ hb x (ix2 u j) (ix1 j) fun d => ?_).symm
  match d with
  | ⟨0, _⟩ =>
    show j.val = if a = 1 then 0 else j.val
    split
    · have := j.isLt; omega
    · rfl

/-! ## The four host operations before the first region -/

theorem pre_v0 (x6 : (⟨Cert.ReferenceIdeal.S32x8, .f32⟩ : BufTy).Contents (Elt Ideal)) (h6 : W (Proc.devRef .tc main_arg6) = x6) :
    StableHlo.after (hostOps0 (F := Ideal)) W (Proc.devRef .tc main_v0) = val_main_v0 (F := Ideal) x6 := by
  after_results; rw [h6]; rfl

theorem pre_v1 (x7 : (⟨Cert.ReferenceIdeal.S32, .f32⟩ : BufTy).Contents (Elt Ideal)) (h7 : W (Proc.devRef .tc main_arg7) = x7) :
    StableHlo.after (hostOps0 (F := Ideal)) W (Proc.devRef .tc main_v1) = val_main_v2 (F := Ideal) x7 := by
  after_results; rw [h7]
  exact row_of_vector (a := 32) x7 _ _

theorem pre_v2 (x8 : (⟨Cert.ReferenceIdeal.S1x32, .f32⟩ : BufTy).Contents (Elt Ideal)) (h8 : W (Proc.devRef .tc main_arg8) = x8) :
    StableHlo.after (hostOps0 (F := Ideal)) W (Proc.devRef .tc main_v2) = val_main_v6 (F := Ideal) x8 := by
  after_results; rw [h8]; rfl

theorem pre_v3 (x9 : (⟨Cert.ReferenceIdeal.S1, .f32⟩ : BufTy).Contents (Elt Ideal)) (h9 : W (Proc.devRef .tc main_arg9) = x9) :
    StableHlo.after (hostOps0 (F := Ideal)) W (Proc.devRef .tc main_v3) = val_main_v8 (F := Ideal) x9 := by
  after_results; rw [h9]
  exact row_of_vector (a := 1) x9 _ _

/-- A buffer the four operations do not write keeps its contents. -/
theorem pre_keeps (b : Ref sig .tc) (hb : b ≠ main_v0 ∧ b ≠ main_v1 ∧ b ≠ main_v2 ∧ b ≠ main_v3) :
    StableHlo.after (hostOps0 (F := Ideal)) W (Proc.devRef .tc b) = W (Proc.devRef .tc b) := by
  obtain ⟨h0, h1, h2, h3⟩ := hb
  simp only [after_cons, after_nil]
  rw [reshape_result_ne (h := h3), unary_result_ne (h := h2), reshape_result_ne (h := h1), unary_result_ne (h := h0)]

end Cert.KernelIdeal.Whole

end
-- ==== Proof.HostBetween.lean ====
/-
  The kernel program's twenty-one host operations between its first and second regions, read
  against the reference's stages, from ANY buffer contents `W` at the first region's exit: the
  edge weights' column recast as a vector, the two row gathers of the artist and album tables (with
  the reference's own wrap-around of negative indices), the transpose of the adapter matrix, and the
  adapter bias recast as a one-row matrix (a reshape here, a broadcast in the reference: the same row).
-/
import proofs.«163263_j64476049047989_2_alg».proof.Proof.Gen.KernelIdeal.Launch
import proofs.«163263_j64476049047989_2_alg».proof.Proof.RefStages
import proofs.«163263_j64476049047989_2_alg».proof.Proof.HostBefore

set_option maxRecDepth 16384

noncomputable section

namespace Cert.KernelIdeal.Whole

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.ReadP (val_main_v16 val_main_v17 val_main_v24 val_main_v32 val_main_v34 val_main_v36)

variable (W : Valuation τ sig (Elt Ideal))

theorem between_v5 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal))
    (h4 : W (Proc.devRef .tc main_v4) = val_main_v16 (F := Ideal) x6 x7 x8 x9 x10) :
    StableHlo.after (hostOps1 (F := Ideal)) W (Proc.devRef .tc main_v5) = val_main_v17 (F := Ideal) x6 x7 x8 x9 x10 := by
  after_results; rw [h4]; rfl

theorem between_v12 (x1 : (⟨Cert.ReferenceIdeal.S20000x64, .f32⟩ : BufTy).Contents (Elt Ideal)) (x13 : (⟨Cert.ReferenceIdeal.S100000, .i32⟩ : BufTy).Contents (Elt Ideal))
    (h1 : W (Proc.devRef .tc main_arg1) = x1) (h13 : W (Proc.devRef .tc main_arg13) = x13) :
    StableHlo.after (hostOps1 (F := Ideal)) W (Proc.devRef .tc main_v12) = val_main_v24 (F := Ideal) x1 x13 := by
  after_results; rw [h1, h13]; rfl

theorem between_v19 (x2 : (⟨Cert.ReferenceIdeal.S30000x64, .f32⟩ : BufTy).Contents (Elt Ideal)) (x14 : (⟨Cert.ReferenceIdeal.S100000, .i32⟩ : BufTy).Contents (Elt Ideal))
    (h2 : W (Proc.devRef .tc main_arg2) = x2) (h14 : W (Proc.devRef .tc main_arg14) = x14) :
    StableHlo.after (hostOps1 (F := Ideal)) W (Proc.devRef .tc main_v19) = val_main_v32 (F := Ideal) x2 x14 := by
  after_results; rw [h2, h14]; rfl

theorem between_v20 (x4 : (⟨Cert.ReferenceIdeal.S64x64, .f32⟩ : BufTy).Contents (Elt Ideal)) (h4 : W (Proc.devRef .tc main_arg4) = x4) :
    StableHlo.after (hostOps1 (F := Ideal)) W (Proc.devRef .tc main_v20) = val_main_v34 (F := Ideal) x4 := by
  after_results; rw [h4]; rfl

theorem between_v21 (x5 : (⟨Cert.ReferenceIdeal.S64, .f32⟩ : BufTy).Contents (Elt Ideal)) (h5 : W (Proc.devRef .tc main_arg5) = x5) :
    StableHlo.after (hostOps1 (F := Ideal)) W (Proc.devRef .tc main_v21) = val_main_v36 (F := Ideal) x5 := by
  after_results; rw [h5]
  exact row_of_vector (a := 64) x5 _ _

/-- The arguments these operations do not write keep their contents. -/
theorem between_keeps_arg0 : StableHlo.after (hostOps1 (F := Ideal)) W (Proc.devRef .tc main_arg0) = W (Proc.devRef .tc main_arg0) := by after_results
theorem between_keeps_arg3 : StableHlo.after (hostOps1 (F := Ideal)) W (Proc.devRef .tc main_arg3) = W (Proc.devRef .tc main_arg3) := by after_results
theorem between_keeps_arg11 : StableHlo.after (hostOps1 (F := Ideal)) W (Proc.devRef .tc main_arg11) = W (Proc.devRef .tc main_arg11) := by after_results
theorem between_keeps_arg12 : StableHlo.after (hostOps1 (F := Ideal)) W (Proc.devRef .tc main_arg12) = W (Proc.devRef .tc main_arg12) := by after_results
theorem between_keeps_arg15 : StableHlo.after (hostOps1 (F := Ideal)) W (Proc.devRef .tc main_arg15) = W (Proc.devRef .tc main_arg15) := by after_results
theorem between_keeps_arg16 : StableHlo.after (hostOps1 (F := Ideal)) W (Proc.devRef .tc main_arg16) = W (Proc.devRef .tc main_arg16) := by after_results

end Cert.KernelIdeal.Whole

end
-- ==== Proof.HostLayers.lean ====
/-
  The kernel program's host operations between its second and third regions, read against the
  reference: the node table (user rows over fused item rows), the symmetric edge list in global
  node ids, the weighted degrees scattered over the target nodes, the inverse square roots of the
  positive degrees (two selects around an rsqrt), the symmetric normalisation of each edge, and
  three rounds of gather, scale and scatter-add. The kernel program and the reference spell this
  stretch with the same operations in the same order, so it is never opened: the stretch is printed
  in five pieces, each piece is read from ANY buffer contents `W` given what `W` holds at the buffers
  the piece reads, and the pieces are chained. A buffer a piece does not write keeps its contents.
-/
import proofs.«163263_j64476049047989_2_alg».proof.Proof.Gen.KernelIdeal.Launch
import proofs.«163263_j64476049047989_2_alg».proof.Proof.RefStages
import proofs.«163263_j64476049047989_2_alg».proof.Proof.HostBefore

set_option maxRecDepth 16384

noncomputable section

namespace Cert.KernelIdeal.Whole

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.ReadP (val_main_v17 val_main_v46 val_main_v47 val_main_v50 val_main_v51 val_main_v54 val_main_v56 val_main_v58 val_main_v59 val_main_v60 val_main_v61 val_main_v116 val_main_cst_10 val_main_cst_11 val_main_call1_v1 val_main_call2_v1)

variable (W : Valuation τ sig (Elt Ideal))

/-! ## The first piece: the node table, the edge list, the degrees and the two comparisons -/

set_option maxHeartbeats 1000000 in
theorem first_v23 (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x13 x14 : (⟨Cert.ReferenceIdeal.S100000, .i32⟩ : BufTy).Contents (Elt Ideal))
    (h0 : W (Proc.devRef .tc main_arg0) = x0) (h22 : W (Proc.devRef .tc main_v22) = val_main_v46 (F := Ideal) x1 x2 x3 x4 x5 x13 x14) :
    StableHlo.after (hostOps2 (F := Ideal)) W (Proc.devRef .tc main_v23) = val_main_v47 (F := Ideal) x0 x1 x2 x3 x4 x5 x13 x14 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h0, h22]
  rfl

set_option maxHeartbeats 1000000 in
theorem first_v26 (x11 x12 : (⟨Cert.ReferenceIdeal.S1000000, .i32⟩ : BufTy).Contents (Elt Ideal)) (h11 : W (Proc.devRef .tc main_arg11) = x11) (h12 : W (Proc.devRef .tc main_arg12) = x12) :
    StableHlo.after (hostOps2 (F := Ideal)) W (Proc.devRef .tc main_v26) = val_main_v50 (F := Ideal) x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h11, h12]
  rfl

set_option maxHeartbeats 1000000 in
theorem first_v27 (x11 x12 : (⟨Cert.ReferenceIdeal.S1000000, .i32⟩ : BufTy).Contents (Elt Ideal)) (h11 : W (Proc.devRef .tc main_arg11) = x11) (h12 : W (Proc.devRef .tc main_arg12) = x12) :
    StableHlo.after (hostOps2 (F := Ideal)) W (Proc.devRef .tc main_v27) = val_main_v51 (F := Ideal) x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h11, h12]
  rfl

set_option maxHeartbeats 1000000 in
theorem first_v30 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (h5 : W (Proc.devRef .tc main_v5) = val_main_v17 (F := Ideal) x6 x7 x8 x9 x10)
    (h11 : W (Proc.devRef .tc main_arg11) = x11) (h12 : W (Proc.devRef .tc main_arg12) = x12) :
    StableHlo.after (hostOps2 (F := Ideal)) W (Proc.devRef .tc main_v30) = val_main_v54 (F := Ideal) x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h5, h11, h12]
  rfl

set_option maxHeartbeats 1000000 in
theorem first_v32 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (h5 : W (Proc.devRef .tc main_v5) = val_main_v17 (F := Ideal) x6 x7 x8 x9 x10)
    (h11 : W (Proc.devRef .tc main_arg11) = x11) (h12 : W (Proc.devRef .tc main_arg12) = x12) :
    StableHlo.after (hostOps2 (F := Ideal)) W (Proc.devRef .tc main_v32) = val_main_v56 (F := Ideal) x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h5, h11, h12]
  rfl

set_option maxHeartbeats 1000000 in
theorem first_v34 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (h5 : W (Proc.devRef .tc main_v5) = val_main_v17 (F := Ideal) x6 x7 x8 x9 x10)
    (h11 : W (Proc.devRef .tc main_arg11) = x11) (h12 : W (Proc.devRef .tc main_arg12) = x12) :
    StableHlo.after (hostOps2 (F := Ideal)) W (Proc.devRef .tc main_v34) = val_main_v58 (F := Ideal) x6 x7 x8 x9 x10 x11 x12 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h5, h11, h12]
  rfl

theorem first_one : StableHlo.after (hostOps2 (F := Ideal)) W (Proc.devRef .tc main_cst_6) = val_main_cst_10 (F := Ideal) := by
  after_results_simp
  rfl

theorem first_keeps_v5 : StableHlo.after (hostOps2 (F := Ideal)) W (Proc.devRef .tc main_v5) = W (Proc.devRef .tc main_v5) := by after_results_simp
theorem first_keeps_arg15 : StableHlo.after (hostOps2 (F := Ideal)) W (Proc.devRef .tc main_arg15) = W (Proc.devRef .tc main_arg15) := by after_results_simp
theorem first_keeps_arg16 : StableHlo.after (hostOps2 (F := Ideal)) W (Proc.devRef .tc main_arg16) = W (Proc.devRef .tc main_arg16) := by after_results_simp

/-! ## The second piece: the positive degrees, one elsewhere (the inner select) -/

theorem second_v35 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (h1 : W (Proc.devRef .tc main_cst_6) = val_main_cst_10 (F := Ideal))
    (h34 : W (Proc.devRef .tc main_v34) = val_main_v58 (F := Ideal) x6 x7 x8 x9 x10 x11 x12) (h30 : W (Proc.devRef .tc main_v30) = val_main_v54 (F := Ideal) x6 x7 x8 x9 x10 x11 x12) :
    StableHlo.after (hostOps2_1 (F := Ideal)) W (Proc.devRef .tc main_v35) = val_main_v59 (F := Ideal) x6 x7 x8 x9 x10 x11 x12 := by
  after_results
  rw [h1, h34, h30]
  unfold Cert.ReferenceIdeal.ReadP.val_main_v59
  refine Eq.trans (b := select _ _ _) (by rfl) ?_
  refine congr (congr (congrArg select ?_) ?_) ?_ <;> rfl

theorem second_keeps (b : Ref sig .tc) (hb : b ≠ main_call0_v0 ∧ b ≠ main_call0_v1 ∧ b ≠ main_v35) :
    StableHlo.after (hostOps2_1 (F := Ideal)) W (Proc.devRef .tc b) = W (Proc.devRef .tc b) := by
  obtain ⟨h0, h1, h2⟩ := hb
  simp only [after_cons, after_nil]
  rw [ternary_result_ne (h := h2), unary_result_ne (h := h1), unary_result_ne (h := h0)]

/-! ## The third piece: the inverse square root, and the zero of the outer select -/

theorem third_v36 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (h35 : W (Proc.devRef .tc main_v35) = val_main_v59 (F := Ideal) x6 x7 x8 x9 x10 x11 x12) :
    StableHlo.after (hostOps2_2 (F := Ideal)) W (Proc.devRef .tc main_v36) = val_main_v60 (F := Ideal) x6 x7 x8 x9 x10 x11 x12 := by
  after_results; rw [h35]; rfl

theorem third_zero : StableHlo.after (hostOps2_2 (F := Ideal)) W (Proc.devRef .tc main_cst_7) = val_main_cst_11 (F := Ideal) := by
  after_results; rfl

theorem third_keeps (b : Ref sig .tc) (hb : b ≠ main_v36 ∧ b ≠ main_cst_7) :
    StableHlo.after (hostOps2_2 (F := Ideal)) W (Proc.devRef .tc b) = W (Proc.devRef .tc b) := by
  obtain ⟨h0, h1⟩ := hb
  simp only [after_cons, after_nil]
  rw [nullary_result_ne (h := h1), unary_result_ne (h := h0)]

/-! ## The fourth piece: zero where the degree is not positive (the outer select) -/

theorem fourth_v37 (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (h0 : W (Proc.devRef .tc main_cst_7) = val_main_cst_11 (F := Ideal))
    (h32 : W (Proc.devRef .tc main_v32) = val_main_v56 (F := Ideal) x6 x7 x8 x9 x10 x11 x12) (h36 : W (Proc.devRef .tc main_v36) = val_main_v60 (F := Ideal) x6 x7 x8 x9 x10 x11 x12) :
    StableHlo.after (hostOps2_3 (F := Ideal)) W (Proc.devRef .tc main_v37) = val_main_v61 (F := Ideal) x6 x7 x8 x9 x10 x11 x12 := by
  after_results
  rw [h0, h32, h36]
  unfold Cert.ReferenceIdeal.ReadP.val_main_v61
  refine Eq.trans (b := select _ _ _) (by rfl) ?_
  refine congr (congr (congrArg select ?_) ?_) ?_ <;> rfl

theorem fourth_keeps (b : Ref sig .tc) (hb : b ≠ main_call1_v0 ∧ b ≠ main_call1_v1 ∧ b ≠ main_v37) :
    StableHlo.after (hostOps2_3 (F := Ideal)) W (Proc.devRef .tc b) = W (Proc.devRef .tc b) := by
  obtain ⟨h0, h1, h2⟩ := hb
  simp only [after_cons, after_nil]
  rw [ternary_result_ne (h := h2), unary_result_ne (h := h1), unary_result_ne (h := h0)]

/-! ## The fifth piece: each edge's normalisation, and three rounds of gather, scale and scatter-add -/

set_option maxHeartbeats 4000000 in
theorem fifth_v92 (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (x13 x14 : (⟨Cert.ReferenceIdeal.S100000, .i32⟩ : BufTy).Contents (Elt Ideal))
    (h23 : W (Proc.devRef .tc main_v23) = val_main_v47 (F := Ideal) x0 x1 x2 x3 x4 x5 x13 x14)
    (h26 : W (Proc.devRef .tc main_v26) = val_main_v50 (F := Ideal) x11 x12) (h27 : W (Proc.devRef .tc main_v27) = val_main_v51 (F := Ideal) x11 x12)
    (h37 : W (Proc.devRef .tc main_v37) = val_main_v61 (F := Ideal) x6 x7 x8 x9 x10 x11 x12) (h5 : W (Proc.devRef .tc main_v5) = val_main_v17 (F := Ideal) x6 x7 x8 x9 x10) :
    StableHlo.after (hostOps2_4 (F := Ideal)) W (Proc.devRef .tc main_v92) = val_main_v116 (F := Ideal) x0 x1 x2 x3 x4 x5 x6 x7 x8 x9 x10 x11 x12 x13 x14 := by
  after_results_simp
  rw [h23, h26, h27, h37, h5]
  rfl

set_option maxHeartbeats 4000000 in
theorem fifth_keeps_arg15 : StableHlo.after (hostOps2_4 (F := Ideal)) W (Proc.devRef .tc main_arg15) = W (Proc.devRef .tc main_arg15) := by after_results_simp
set_option maxHeartbeats 4000000 in
theorem fifth_keeps_arg16 : StableHlo.after (hostOps2_4 (F := Ideal)) W (Proc.devRef .tc main_arg16) = W (Proc.devRef .tc main_arg16) := by after_results_simp

end Cert.KernelIdeal.Whole

end
-- ==== Proof.HostLayersChain.lean ====
/-
  The five pieces of the kernel program's stretch between its second and third regions, chained:
  from ANY buffer contents `W` at the second region's exit whose fused item rows and edge-weight
  vector are the reference's stages (and whose arguments are given), the node table after the third
  propagation round is the reference's stage. Each piece hands the next what it reads; a value an
  earlier piece wrote is carried across the pieces that do not write it.
-/
import proofs.«163263_j64476049047989_2_alg».proof.Proof.HostLayers

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.ReadP (val_main_v17 val_main_v46 val_main_v116)

variable (W : Valuation τ sig (Elt Ideal))

theorem layers_v92 (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (x13 x14 : (⟨Cert.ReferenceIdeal.S100000, .i32⟩ : BufTy).Contents (Elt Ideal))
    (h22 : W (Proc.devRef .tc main_v22) = val_main_v46 (F := Ideal) x1 x2 x3 x4 x5 x13 x14)
    (h5 : W (Proc.devRef .tc main_v5) = val_main_v17 (F := Ideal) x6 x7 x8 x9 x10)
    (h0 : W (Proc.devRef .tc main_arg0) = x0) (h11 : W (Proc.devRef .tc main_arg11) = x11) (h12 : W (Proc.devRef .tc main_arg12) = x12) :
    StableHlo.after (hostOps2_4 (F := Ideal)) (StableHlo.after (hostOps2_3 (F := Ideal)) (StableHlo.after (hostOps2_2 (F := Ideal))
      (StableHlo.after (hostOps2_1 (F := Ideal)) (StableHlo.after (hostOps2 (F := Ideal)) W)))) (Proc.devRef .tc main_v92)
      = val_main_v116 (F := Ideal) x0 x1 x2 x3 x4 x5 x6 x7 x8 x9 x10 x11 x12 x13 x14 := by
  -- the contents after each of the first four pieces
  generalize hW1 : StableHlo.after (hostOps2 (F := Ideal)) W = W1
  generalize hW2 : StableHlo.after (hostOps2_1 (F := Ideal)) W1 = W2
  generalize hW3 : StableHlo.after (hostOps2_2 (F := Ideal)) W2 = W3
  generalize hW4 : StableHlo.after (hostOps2_3 (F := Ideal)) W3 = W4
  -- after the first piece
  have a23 := hW1 ▸ first_v23 W x0 x1 x2 x3 x4 x5 x13 x14 h0 h22
  have a26 := hW1 ▸ first_v26 W x11 x12 h11 h12
  have a27 := hW1 ▸ first_v27 W x11 x12 h11 h12
  have a30 := hW1 ▸ first_v30 W x6 x7 x8 x9 x10 x11 x12 h5 h11 h12
  have a32 := hW1 ▸ first_v32 W x6 x7 x8 x9 x10 x11 x12 h5 h11 h12
  have a34 := hW1 ▸ first_v34 W x6 x7 x8 x9 x10 x11 x12 h5 h11 h12
  have a1 := hW1 ▸ first_one W
  have a5 := hW1 ▸ (first_keeps_v5 W).trans h5
  -- after the second
  have b35 := hW2 ▸ second_v35 W1 x6 x7 x8 x9 x10 x11 x12 a1 a34 a30
  have b23 := hW2 ▸ (second_keeps W1 main_v23 (by decide)).trans a23
  have b26 := hW2 ▸ (second_keeps W1 main_v26 (by decide)).trans a26
  have b27 := hW2 ▸ (second_keeps W1 main_v27 (by decide)).trans a27
  have b32 := hW2 ▸ (second_keeps W1 main_v32 (by decide)).trans a32
  have b5 := hW2 ▸ (second_keeps W1 main_v5 (by decide)).trans a5
  -- after the third
  have c36 := hW3 ▸ third_v36 W2 x6 x7 x8 x9 x10 x11 x12 b35
  have c0 := hW3 ▸ third_zero W2
  have c23 := hW3 ▸ (third_keeps W2 main_v23 (by decide)).trans b23
  have c26 := hW3 ▸ (third_keeps W2 main_v26 (by decide)).trans b26
  have c27 := hW3 ▸ (third_keeps W2 main_v27 (by decide)).trans b27
  have c32 := hW3 ▸ (third_keeps W2 main_v32 (by decide)).trans b32
  have c5 := hW3 ▸ (third_keeps W2 main_v5 (by decide)).trans b5
  -- after the fourth
  have d37 := hW4 ▸ fourth_v37 W3 x6 x7 x8 x9 x10 x11 x12 c0 c32 c36
  have d23 := hW4 ▸ (fourth_keeps W3 main_v23 (by decide)).trans c23
  have d26 := hW4 ▸ (fourth_keeps W3 main_v26 (by decide)).trans c26
  have d27 := hW4 ▸ (fourth_keeps W3 main_v27 (by decide)).trans c27
  have d5 := hW4 ▸ (fourth_keeps W3 main_v5 (by decide)).trans c5
  exact fifth_v92 W4 x0 x1 x2 x3 x4 x5 x6 x7 x8 x9 x10 x11 x12 x13 x14 d23 d26 d27 d37 d5

theorem layers_keeps_arg15 :
    StableHlo.after (hostOps2_4 (F := Ideal)) (StableHlo.after (hostOps2_3 (F := Ideal)) (StableHlo.after (hostOps2_2 (F := Ideal))
      (StableHlo.after (hostOps2_1 (F := Ideal)) (StableHlo.after (hostOps2 (F := Ideal)) W)))) (Proc.devRef .tc main_arg15)
      = W (Proc.devRef .tc main_arg15) :=
  (fifth_keeps_arg15 _).trans ((fourth_keeps _ main_arg15 (by decide)).trans ((third_keeps _ main_arg15 (by decide)).trans
    ((second_keeps _ main_arg15 (by decide)).trans (first_keeps_arg15 W))))

theorem layers_keeps_arg16 :
    StableHlo.after (hostOps2_4 (F := Ideal)) (StableHlo.after (hostOps2_3 (F := Ideal)) (StableHlo.after (hostOps2_2 (F := Ideal))
      (StableHlo.after (hostOps2_1 (F := Ideal)) (StableHlo.after (hostOps2 (F := Ideal)) W)))) (Proc.devRef .tc main_arg16)
      = W (Proc.devRef .tc main_arg16) :=
  (fifth_keeps_arg16 _).trans ((fourth_keeps _ main_arg16 (by decide)).trans ((third_keeps _ main_arg16 (by decide)).trans
    ((second_keeps _ main_arg16 (by decide)).trans (first_keeps_arg16 W))))

end Cert.KernelIdeal.Whole

end
-- ==== Proof.HostTail.lean ====
/-
  The kernel program's host operations after its third region, read against the reference: the
  rows of the normalised node table gathered at the user indices (the first result) and at the
  offset positive-item indices, their norms and inner products, the cosine with its floor on the
  norms, and the mean of one minus the cosine (the second result). Both programs spell this tail
  with the same operations, so once the normalised node table is the reference's stage the two
  results are the reference's as they stand.
-/
import proofs.«163263_j64476049047989_2_alg».proof.Proof.Gen.KernelIdeal.Launch
import proofs.«163263_j64476049047989_2_alg».proof.Proof.RefStages
import proofs.«163263_j64476049047989_2_alg».proof.Proof.HostBefore

set_option maxRecDepth 16384

noncomputable section

namespace Cert.KernelIdeal.Whole

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.ReadP (val_main_v124 val_main_v131 val_main_v158)

variable (W : Valuation τ sig (Elt Ideal))

set_option maxHeartbeats 4000000 in
theorem tail_v100 (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (x13 x14 : (⟨Cert.ReferenceIdeal.S100000, .i32⟩ : BufTy).Contents (Elt Ideal)) (x15 : (⟨Cert.ReferenceIdeal.S4096, .i32⟩ : BufTy).Contents (Elt Ideal))
    (h93 : W (Proc.devRef .tc main_v93) = val_main_v124 (F := Ideal) x0 x1 x2 x3 x4 x5 x6 x7 x8 x9 x10 x11 x12 x13 x14)
    (h15 : W (Proc.devRef .tc main_arg15) = x15) :
    StableHlo.after (hostOps3 (F := Ideal)) W (Proc.devRef .tc main_v100) = val_main_v131 (F := Ideal) x0 x1 x2 x3 x4 x5 x6 x7 x8 x9 x10 x11 x12 x13 x14 x15 := by
  after_results_simp
  simp only [h93, h15]
  rfl

set_option maxHeartbeats 4000000 in
theorem tail_v127 (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (x13 x14 : (⟨Cert.ReferenceIdeal.S100000, .i32⟩ : BufTy).Contents (Elt Ideal)) (x15 x16 : (⟨Cert.ReferenceIdeal.S4096, .i32⟩ : BufTy).Contents (Elt Ideal))
    (h93 : W (Proc.devRef .tc main_v93) = val_main_v124 (F := Ideal) x0 x1 x2 x3 x4 x5 x6 x7 x8 x9 x10 x11 x12 x13 x14)
    (h15 : W (Proc.devRef .tc main_arg15) = x15) (h16 : W (Proc.devRef .tc main_arg16) = x16) :
    StableHlo.after (hostOps3 (F := Ideal)) W (Proc.devRef .tc main_v127) = val_main_v158 (F := Ideal) x0 x1 x2 x3 x4 x5 x6 x7 x8 x9 x10 x11 x12 x13 x14 x15 x16 := by
  after_results_simp
  simp only [h93, h15, h16]
  rfl

end Cert.KernelIdeal.Whole

end
-- ==== Proof.KernelValue.lean ====
/-
  The idealized kernel program's two results as the reference's stages of the launch arguments.

  The run's final memory is a fold of eleven segments over the launch memory (the run module). Here
  the fold is walked once, front to back. Before the first region the four small operands are the
  reference's transposes and bias rows; the first region's output array is the reference's edge
  weights; between the regions the gathered table rows, the transposed adapter matrix and its bias
  row are the reference's; the second region's output array is the reference's normalised fused
  item rows; the long stretch of propagation layers is the reference's own; the third region's
  output is the reference's normalised node table; and the tail gathers and averages as the
  reference does. What each region's grid points leave in its output array is taken here as a
  hypothesis (`EdgeWeights`, `FusedItems`, `NormalisedNodes`), proved in the regions' own modules.
-/
import proofs.«163263_j64476049047989_2_alg».proof.Proof.KernelRun
import proofs.«163263_j64476049047989_2_alg».proof.Proof.HostBefore
import proofs.«163263_j64476049047989_2_alg».proof.Proof.HostBetween
import proofs.«163263_j64476049047989_2_alg».proof.Proof.HostLayersChain
import proofs.«163263_j64476049047989_2_alg».proof.Proof.HostTail

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.ReadP (val_main_v0 val_main_v2 val_main_v6 val_main_v8 val_main_v16 val_main_v17 val_main_v24
  val_main_v32 val_main_v34 val_main_v36 val_main_v46 val_main_v116 val_main_v124 val_main_v131 val_main_v158)

/-- The first region: from entry contents whose four small operands are the reference's, the output
    array ends at the reference's edge weights of them and the edge features found at entry. -/
def EdgeWeights : Prop :=
  ∀ (V : (c : Dev nD) → (b : Ref sig .tc) → Buf (Elt Ideal) ((c : Thread nD τ).loc b)) (c : Dev nD)
    (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)),
    V c main_v0 = val_main_v0 (F := Ideal) x6 → V c main_v1 = val_main_v2 (F := Ideal) x7 →
    V c main_v2 = val_main_v6 (F := Ideal) x8 → V c main_v3 = val_main_v8 (F := Ideal) x9 →
    (dat0 (F := Ideal) V c).arrAt 5 cfg0.N = val_main_v16 (F := Ideal) x6 x7 x8 x9 (V c main_arg10)

/-- The second region: from entry contents whose gathered rows, adapter matrix and bias row are the
    reference's, the output array ends at the reference's normalised fused item rows. -/
def FusedItems : Prop :=
  ∀ (V : (c : Dev nD) → (b : Ref sig .tc) → Buf (Elt Ideal) ((c : Thread nD τ).loc b)) (c : Dev nD)
    (x1 : (⟨Cert.ReferenceIdeal.S20000x64, .f32⟩ : BufTy).Contents (Elt Ideal)) (x2 : (⟨Cert.ReferenceIdeal.S30000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal))
    (x13 x14 : (⟨Cert.ReferenceIdeal.S100000, .i32⟩ : BufTy).Contents (Elt Ideal)),
    V c main_v12 = val_main_v24 (F := Ideal) x1 x13 → V c main_v19 = val_main_v32 (F := Ideal) x2 x14 →
    V c main_v20 = val_main_v34 (F := Ideal) x4 → V c main_v21 = val_main_v36 (F := Ideal) x5 →
    (dat1 (F := Ideal) V c).arrAt 5 cfg1.N = val_main_v46 (F := Ideal) x1 x2 (V c main_arg3) x4 x5 x13 x14

/-- The third region: from entry contents whose node table is the reference's after its three
    propagation layers, the output array ends at the reference's row-normalised node table. -/
def NormalisedNodes : Prop :=
  ∀ (V : (c : Dev nD) → (b : Ref sig .tc) → Buf (Elt Ideal) ((c : Thread nD τ).loc b)) (c : Dev nD)
    (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal)) (x11 x12 : (⟨Cert.ReferenceIdeal.S1000000, .i32⟩ : BufTy).Contents (Elt Ideal)) (x13 x14 : (⟨Cert.ReferenceIdeal.S100000, .i32⟩ : BufTy).Contents (Elt Ideal)),
    V c main_v92 = val_main_v116 (F := Ideal) x0 x1 x2 x3 x4 x5 x6 x7 x8 x9 x10 x11 x12 x13 x14 →
    (dat2 (F := Ideal) V c).arrAt 1 cfg2.N = val_main_v124 (F := Ideal) x0 x1 x2 x3 x4 x5 x6 x7 x8 x9 x10 x11 x12 x13 x14

variable (m : (ℓ : Loc nD τ sig) → Buf (Elt Ideal) ℓ) (ρ : Dev nD → PrngReg) (c : Dev nD)

/-- An argument's buffer at the first region's exit holds the launch contents: no operation before
    the region writes it, and the region writes only its output array. -/
theorem exit0_arg (b : Ref sig .tc) (hw : ∀ w, Pipeline.arrRef spec0 w ≠ b)
    (hb : b ≠ main_v0 ∧ b ≠ main_v1 ∧ b ≠ main_v2 ∧ b ≠ main_v3) :
    W2 m ρ c (Proc.devRef .tc b) = W0 m ρ c (Proc.devRef .tc b) :=
  (W2_of_ne m ρ c b hw).trans (pre_keeps (W0 m ρ c) b hb)

/-- The first region's output array in the fold. -/
theorem exit0_weights (hR0 : EdgeWeights) :
    W2 m ρ c (Proc.devRef .tc main_v4)
      = val_main_v16 (F := Ideal) (m ((c : Thread nD τ).loc main_arg6)) (m ((c : Thread nD τ).loc main_arg7)) (m ((c : Thread nD τ).loc main_arg8)) (m ((c : Thread nD τ).loc main_arg9)) (m ((c : Thread nD τ).loc main_arg10)) :=
  (W2_arr m ρ c 5).trans ((hR0 (V1 m ρ) c _ _ _ _
      (pre_v0 (W0 m ρ c) _ rfl) (pre_v1 (W0 m ρ c) _ rfl) (pre_v2 (W0 m ρ c) _ rfl) (pre_v3 (W0 m ρ c) _ rfl)).trans
    (congrArg (val_main_v16 (F := Ideal) (m ((c : Thread nD τ).loc main_arg6)) (m ((c : Thread nD τ).loc main_arg7)) (m ((c : Thread nD τ).loc main_arg8)) (m ((c : Thread nD τ).loc main_arg9)))
      (pre_keeps (W0 m ρ c) main_arg10 (by decide))))

/-- The second region's output array in the fold. -/
theorem exit1_items (hR0 : EdgeWeights) (hR1 : FusedItems) :
    W4 m ρ c (Proc.devRef .tc main_v22)
      = val_main_v46 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) :=
  (W4_arr m ρ c 5).trans ((hR1 (V3 m ρ) c _ _ _ _ _ _
      (between_v12 (W2 m ρ c) _ _ (exit0_arg m ρ c main_arg1 (by decide) (by decide)) (exit0_arg m ρ c main_arg13 (by decide) (by decide)))
      (between_v19 (W2 m ρ c) _ _ (exit0_arg m ρ c main_arg2 (by decide) (by decide)) (exit0_arg m ρ c main_arg14 (by decide) (by decide)))
      (between_v20 (W2 m ρ c) _ (exit0_arg m ρ c main_arg4 (by decide) (by decide)))
      (between_v21 (W2 m ρ c) _ (exit0_arg m ρ c main_arg5 (by decide) (by decide)))).trans
    (congrArg (fun z => val_main_v46 (F := Ideal) (m ((c : Thread nD τ).loc main_arg1)) (m ((c : Thread nD τ).loc main_arg2)) z (m ((c : Thread nD τ).loc main_arg4)) (m ((c : Thread nD τ).loc main_arg5)) (m ((c : Thread nD τ).loc main_arg13)) (m ((c : Thread nD τ).loc main_arg14)))
      ((between_keeps_arg3 (W2 m ρ c)).trans (exit0_arg m ρ c main_arg3 (by decide) (by decide)))))

/-- The edge weights as a vector, at the second region's exit. -/
theorem exit1_weights (hR0 : EdgeWeights) :
    W4 m ρ c (Proc.devRef .tc main_v5)
      = val_main_v17 (F := Ideal) (m ((c : Thread nD τ).loc main_arg6)) (m ((c : Thread nD τ).loc main_arg7)) (m ((c : Thread nD τ).loc main_arg8)) (m ((c : Thread nD τ).loc main_arg9)) (m ((c : Thread nD τ).loc main_arg10)) :=
  (W4_of_ne m ρ c main_v5 (by decide)).trans (between_v5 (W2 m ρ c) _ _ _ _ _ (exit0_weights m ρ c hR0))

/-- The arguments the later stretches read, at the second region's exit. -/
theorem exit1_arg0 : W4 m ρ c (Proc.devRef .tc main_arg0) = (m ((c : Thread nD τ).loc main_arg0)) :=
  (W4_of_ne m ρ c main_arg0 (by decide)).trans ((between_keeps_arg0 (W2 m ρ c)).trans (exit0_arg m ρ c main_arg0 (by decide) (by decide)))
theorem exit1_arg11 : W4 m ρ c (Proc.devRef .tc main_arg11) = (m ((c : Thread nD τ).loc main_arg11)) :=
  (W4_of_ne m ρ c main_arg11 (by decide)).trans ((between_keeps_arg11 (W2 m ρ c)).trans (exit0_arg m ρ c main_arg11 (by decide) (by decide)))
theorem exit1_arg12 : W4 m ρ c (Proc.devRef .tc main_arg12) = (m ((c : Thread nD τ).loc main_arg12)) :=
  (W4_of_ne m ρ c main_arg12 (by decide)).trans ((between_keeps_arg12 (W2 m ρ c)).trans (exit0_arg m ρ c main_arg12 (by decide) (by decide)))
theorem exit1_arg15 : W4 m ρ c (Proc.devRef .tc main_arg15) = (m ((c : Thread nD τ).loc main_arg15)) :=
  (W4_of_ne m ρ c main_arg15 (by decide)).trans ((between_keeps_arg15 (W2 m ρ c)).trans (exit0_arg m ρ c main_arg15 (by decide) (by decide)))
theorem exit1_arg16 : W4 m ρ c (Proc.devRef .tc main_arg16) = (m ((c : Thread nD τ).loc main_arg16)) :=
  (W4_of_ne m ρ c main_arg16 (by decide)).trans ((between_keeps_arg16 (W2 m ρ c)).trans (exit0_arg m ρ c main_arg16 (by decide) (by decide)))

/-- The third region's output array in the fold. -/
theorem exit2_nodes (hR0 : EdgeWeights) (hR1 : FusedItems) (hR2 : NormalisedNodes) :
    W10 m ρ c (Proc.devRef .tc main_v93) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W10_arr m ρ c 1).trans (hR2 (V9 m ρ) c _ _ _ _ _ _ _ _ _ _ _ _ _ _ _
    (layers_v92 (W4 m ρ c) _ _ _ _ _ _ _ _ _ _ _ _ _ _ _ (exit1_items m ρ c hR0 hR1) (exit1_weights m ρ c hR0)
      (exit1_arg0 m ρ c) (exit1_arg11 m ρ c) (exit1_arg12 m ρ c)))

theorem exit2_arg15 : W10 m ρ c (Proc.devRef .tc main_arg15) = (m ((c : Thread nD τ).loc main_arg15)) :=
  (W10_of_ne m ρ c main_arg15 (by decide)).trans ((layers_keeps_arg15 (W4 m ρ c)).trans (exit1_arg15 m ρ c))
theorem exit2_arg16 : W10 m ρ c (Proc.devRef .tc main_arg16) = (m ((c : Thread nD τ).loc main_arg16)) :=
  (W10_of_ne m ρ c main_arg16 (by decide)).trans ((layers_keeps_arg16 (W4 m ρ c)).trans (exit1_arg16 m ρ c))

/-- The first result: the normalised rows of the users asked for. -/
theorem result0 (hR0 : EdgeWeights) (hR1 : FusedItems) (hR2 : NormalisedNodes) :
    W11 m ρ c (Proc.devRef .tc main_v100) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  tail_v100 (W10 m ρ c) _ _ _ _ _ _ _ _ _ _ _ _ _ _ _ _ (exit2_nodes m ρ c hR0 hR1 hR2) (exit2_arg15 m ρ c)

/-- The second result: the mean of one minus the cosine of each user's and its positive item's rows. -/
theorem result1 (hR0 : EdgeWeights) (hR1 : FusedItems) (hR2 : NormalisedNodes) :
    W11 m ρ c (Proc.devRef .tc main_v127) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  tail_v127 (W10 m ρ c) _ _ _ _ _ _ _ _ _ _ _ _ _ _ _ _ _ (exit2_nodes m ρ c hR0 hR1 hR2) (exit2_arg15 m ρ c) (exit2_arg16 m ρ c)

end Cert.KernelIdeal.Whole

end
-- ==== Proof.EdgeMlpPoint.lean ====
/-
  One grid point of the edge MLP, read at one row.

  The body takes a block of 20000 edges with 8 features each, a weight matrix [8,32], a bias row
  [1,32], a second weight column [32,1] and a bias [1,1], and stores, for every edge r of the block,
    sigmoid( sum_h max( sum_f ef[r,f] * w1[f,h] + b1[0,h] , 0 ) * w2[h,0]  +  b2[0,0] ).
  Over the extended reals the changes of float format are the identity, a matrix product into a
  zero accumulator is the plain sum over the contracted axis, and the two broadcasts read the one
  row (the one entry) they repeat. This module proves that reading, for arbitrary blocks.
-/
import proofs.«163263_j64476049047989_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.EdgeMlp

open Idealize.ShloMosaic Idealize.ShloMosaic.ValueIdx
open Cert.KernelIdeal Cert.KernelIdeal.Gen

theorem dotA_lhs0 (i : S20000x32.Idx) (q : dot_S20000x8_S8x32_S20000x32_1_0_0_1_n_n.contr.Idx) :
    (dot_S20000x8_S8x32_S20000x32_1_0_0_1_n_n.lhsIdx i q 0).val = (i 0).val := by
  unfold DotDims.lhsIdx
  rw [dif_neg (show ¬(0 : Fin S20000x8.rank) ∈ dot_S20000x8_S8x32_S20000x32_1_0_0_1_n_n.lhsBatch by decide), dif_pos (show (0 : Fin S20000x8.rank) ∈ dot_S20000x8_S8x32_S20000x32_1_0_0_1_n_n.lhsNonContracting by decide)]
  rfl
theorem dotA_lhs1 (i : S20000x32.Idx) (q : dot_S20000x8_S8x32_S20000x32_1_0_0_1_n_n.contr.Idx) :
    (dot_S20000x8_S8x32_S20000x32_1_0_0_1_n_n.lhsIdx i q 1).val = (q ⟨0, by decide⟩).val :=
  dot_S20000x8_S8x32_S20000x32_1_0_0_1_n_n.lhsIdx_val_of_single rfl i q
theorem dotA_rhs0 (i : S20000x32.Idx) (q : dot_S20000x8_S8x32_S20000x32_1_0_0_1_n_n.contr.Idx) :
    (dot_S20000x8_S8x32_S20000x32_1_0_0_1_n_n.rhsIdx i q 0).val = (q ⟨0, by decide⟩).val :=
  dot_S20000x8_S8x32_S20000x32_1_0_0_1_n_n.rhsIdx_val_of_single rfl i q
theorem dotA_rhs1 (i : S20000x32.Idx) (q : dot_S20000x8_S8x32_S20000x32_1_0_0_1_n_n.contr.Idx) :
    (dot_S20000x8_S8x32_S20000x32_1_0_0_1_n_n.rhsIdx i q 1).val = (i 1).val := by
  unfold DotDims.rhsIdx
  rw [dif_neg (show ¬(1 : Fin S8x32.rank) ∈ dot_S20000x8_S8x32_S20000x32_1_0_0_1_n_n.rhsBatch by decide), dif_pos (show (1 : Fin S8x32.rank) ∈ dot_S20000x8_S8x32_S20000x32_1_0_0_1_n_n.rhsNonContracting by decide)]
  rfl

/-- The first matrix product at (r, h): the sum over the 8 features. -/
theorem hidden_dot (a : FVec Ideal S20000x8 .bf16) (b : FVec Ideal S8x32 .bf16) (r : Fin 20000) (h : Fin 32) :
    matmul dot_S20000x8_S8x32_S20000x32_1_0_0_1_n_n none a b (constant S20000x32 .f32 0x00000000#32) (ix2 r h)
      = ∑ k : Fin 8, a (ix2 r k) * b (ix2 k h) := by
  simp only [matmul]
  rw [Ideal.matmul_constant_zero_apply,
    ← Equiv.sum_comp (contrEquiv1 dot_S20000x8_S8x32_S20000x32_1_0_0_1_n_n 8 rfl rfl).symm]
  refine Finset.sum_congr rfl fun k _ => ?_
  have hk := contrEquiv1_symm_val dot_S20000x8_S8x32_S20000x32_1_0_0_1_n_n 8 rfl rfl k
  have el : dot_S20000x8_S8x32_S20000x32_1_0_0_1_n_n.lhsIdx (ix2 r h) ((contrEquiv1 dot_S20000x8_S8x32_S20000x32_1_0_0_1_n_n 8 rfl rfl).symm k) = ix2 r k :=
    funext fun ax => Fin.ext (by
      match ax with
      | ⟨0, _⟩ => exact dotA_lhs0 _ _
      | ⟨1, _⟩ => exact (dotA_lhs1 _ _).trans hk)
  have er : dot_S20000x8_S8x32_S20000x32_1_0_0_1_n_n.rhsIdx (ix2 r h) ((contrEquiv1 dot_S20000x8_S8x32_S20000x32_1_0_0_1_n_n 8 rfl rfl).symm k) = ix2 k h :=
    funext fun ax => Fin.ext (by
      match ax with
      | ⟨0, _⟩ => exact (dotA_rhs0 _ _).trans hk
      | ⟨1, _⟩ => exact dotA_rhs1 _ _)
  rw [el, er]

theorem dotB_lhs0 (i : S20000x1.Idx) (q : dot_S20000x32_S32x1_S20000x1_1_0_0_1_n_n.contr.Idx) :
    (dot_S20000x32_S32x1_S20000x1_1_0_0_1_n_n.lhsIdx i q 0).val = (i 0).val := by
  unfold DotDims.lhsIdx
  rw [dif_neg (show ¬(0 : Fin S20000x32.rank) ∈ dot_S20000x32_S32x1_S20000x1_1_0_0_1_n_n.lhsBatch by decide), dif_pos (show (0 : Fin S20000x32.rank) ∈ dot_S20000x32_S32x1_S20000x1_1_0_0_1_n_n.lhsNonContracting by decide)]
  rfl
theorem dotB_lhs1 (i : S20000x1.Idx) (q : dot_S20000x32_S32x1_S20000x1_1_0_0_1_n_n.contr.Idx) :
    (dot_S20000x32_S32x1_S20000x1_1_0_0_1_n_n.lhsIdx i q 1).val = (q ⟨0, by decide⟩).val :=
  dot_S20000x32_S32x1_S20000x1_1_0_0_1_n_n.lhsIdx_val_of_single rfl i q
theorem dotB_rhs0 (i : S20000x1.Idx) (q : dot_S20000x32_S32x1_S20000x1_1_0_0_1_n_n.contr.Idx) :
    (dot_S20000x32_S32x1_S20000x1_1_0_0_1_n_n.rhsIdx i q 0).val = (q ⟨0, by decide⟩).val :=
  dot_S20000x32_S32x1_S20000x1_1_0_0_1_n_n.rhsIdx_val_of_single rfl i q
theorem dotB_rhs1 (i : S20000x1.Idx) (q : dot_S20000x32_S32x1_S20000x1_1_0_0_1_n_n.contr.Idx) :
    (dot_S20000x32_S32x1_S20000x1_1_0_0_1_n_n.rhsIdx i q 1).val = (i 1).val := by
  unfold DotDims.rhsIdx
  rw [dif_neg (show ¬(1 : Fin S32x1.rank) ∈ dot_S20000x32_S32x1_S20000x1_1_0_0_1_n_n.rhsBatch by decide), dif_pos (show (1 : Fin S32x1.rank) ∈ dot_S20000x32_S32x1_S20000x1_1_0_0_1_n_n.rhsNonContracting by decide)]
  rfl

/-- The second matrix product at (r, 0): the sum over the 32 hidden units. -/
theorem out_dot (a : FVec Ideal S20000x32 .bf16) (b : FVec Ideal S32x1 .bf16) (r : Fin 20000) (h : Fin 1) :
    matmul dot_S20000x32_S32x1_S20000x1_1_0_0_1_n_n none a b (constant S20000x1 .f32 0x00000000#32) (ix2 r h)
      = ∑ k : Fin 32, a (ix2 r k) * b (ix2 k h) := by
  simp only [matmul]
  rw [Ideal.matmul_constant_zero_apply,
    ← Equiv.sum_comp (contrEquiv1 dot_S20000x32_S32x1_S20000x1_1_0_0_1_n_n 32 rfl rfl).symm]
  refine Finset.sum_congr rfl fun k _ => ?_
  have hk := contrEquiv1_symm_val dot_S20000x32_S32x1_S20000x1_1_0_0_1_n_n 32 rfl rfl k
  have el : dot_S20000x32_S32x1_S20000x1_1_0_0_1_n_n.lhsIdx (ix2 r h) ((contrEquiv1 dot_S20000x32_S32x1_S20000x1_1_0_0_1_n_n 32 rfl rfl).symm k) = ix2 r k :=
    funext fun ax => Fin.ext (by
      match ax with
      | ⟨0, _⟩ => exact dotB_lhs0 _ _
      | ⟨1, _⟩ => exact (dotB_lhs1 _ _).trans hk)
  have er : dot_S20000x32_S32x1_S20000x1_1_0_0_1_n_n.rhsIdx (ix2 r h) ((contrEquiv1 dot_S20000x32_S32x1_S20000x1_1_0_0_1_n_n 32 rfl rfl).symm k) = ix2 k h :=
    funext fun ax => Fin.ext (by
      match ax with
      | ⟨0, _⟩ => exact (dotB_rhs0 _ _).trans hk
      | ⟨1, _⟩ => exact dotB_rhs1 _ _)
  rw [el, er]

/-- The body's stored value at row r of the block: the two-layer perceptron with a sigmoid, of that
    row's features. -/
theorem pay_apply (x0 : Vec Ideal S20000x8 .f32) (x1 : Vec Ideal S8x32 .f32) (x2 : Vec Ideal S1x32 .f32)
    (x3 : Vec Ideal S32x1 .f32) (x4 : Vec Ideal S1x1 .f32) (r : Fin 20000) :
    k0_pay1 (F := Ideal) x0 x1 x2 x3 x4 (ix2 r (0 : Fin 1))
      = Ideal.logistic ((∑ h : Fin 32, max ((∑ f : Fin 8, x0 (ix2 r f) * x1 (ix2 f h)) + x2 (ix2 (0 : Fin 1) h)) 0
            * x3 (ix2 h (0 : Fin 1))) + x4 (ix2 (0 : Fin 1) (0 : Fin 1))) := by
  unfold k0_pay1
  simp only [shapeCast_self]
  refine congrArg Ideal.logistic ?_
  refine congrArg₂ (· + ·) ?_ ?_
  · refine (out_dot _ _ r 0).trans ?_
    refine Finset.sum_congr rfl fun h _ => ?_
    refine congrArg₂ (· * ·) ?_ rfl
    exact congrArg₂ max (congrArg₂ (· + ·) (hidden_dot _ _ r h) (broadcastTo_1b_ab_apply x2 broadcasts_S1x32_S20000x32 r h))
      Ideal.ofBits_zero_f32
  · exact broadcastTo_1b_ab_apply x4 broadcasts_S1x1_S20000x1 r 0

end Cert.EdgeMlp

end
-- ==== Proof.EdgeMlpSpec.lean ====
/-
  The edge MLP as one function of whole arrays.

  For an array of E edges with 8 features each, weights w1 [8,32], bias b1 [1,32], weights w2 [32,1]
  and bias b2 [1,1], the score of edge e is
    sigmoid( sum_h max( sum_f ef[e,f] * w1[f,h] + b1[0,h] , 0 ) * w2[h,0]  +  b2[0,0] ),
  a number in the extended reals; the result is the column [E,1] of the scores. Both the blocked
  kernel and the host program are shown to compute this function.
-/
import Idealize.ShloMosaic.Lib.ValueIdx
import Idealize.ShloMosaic.PureOps.Ideal

noncomputable section

namespace Cert.EdgeMlp

open Idealize.ShloMosaic Idealize.ShloMosaic.ValueIdx

/-- The score of one edge from its 8 features. -/
def score (w1 : Vec Ideal ⟨2, ![8, 32]⟩ .f32) (b1 : Vec Ideal ⟨2, ![1, 32]⟩ .f32)
    (w2 : Vec Ideal ⟨2, ![32, 1]⟩ .f32) (b2 : Vec Ideal ⟨2, ![1, 1]⟩ .f32) (feat : Fin 8 → EReal) : EReal :=
  Ideal.logistic ((∑ h : Fin 32, max ((∑ f : Fin 8, feat f * w1 (ix2 f h)) + b1 (ix2 (0 : Fin 1) h)) 0
      * w2 (ix2 h (0 : Fin 1))) + b2 (ix2 (0 : Fin 1) (0 : Fin 1)))

/-- The column of scores of an array of E edges. -/
def scores {E : Nat} (ef : Vec Ideal ⟨2, ![E, 8]⟩ .f32) (w1 : Vec Ideal ⟨2, ![8, 32]⟩ .f32)
    (b1 : Vec Ideal ⟨2, ![1, 32]⟩ .f32) (w2 : Vec Ideal ⟨2, ![32, 1]⟩ .f32) (b2 : Vec Ideal ⟨2, ![1, 1]⟩ .f32) :
    Vec Ideal ⟨2, ![E, 1]⟩ .f32 :=
  fun i => score w1 b1 w2 b2 fun f => ef (ix2 (⟨(i 0).val, idx2_lt0 i⟩ : Fin E) f)

/-- The column read at edge e. -/
theorem scores_apply {E : Nat} (ef : Vec Ideal ⟨2, ![E, 8]⟩ .f32) (w1 : Vec Ideal ⟨2, ![8, 32]⟩ .f32)
    (b1 : Vec Ideal ⟨2, ![1, 32]⟩ .f32) (w2 : Vec Ideal ⟨2, ![32, 1]⟩ .f32) (b2 : Vec Ideal ⟨2, ![1, 1]⟩ .f32)
    (e : Fin E) (q : Fin 1) :
    scores ef w1 b1 w2 b2 (ix2 e q) = score w1 b1 w2 b2 fun f => ef (ix2 e f) := rfl

end Cert.EdgeMlp

end
-- ==== Proof.EdgeMlpArray.lean ====
/-
  From grid points to the whole column of scores.

  The region runs the body at 100 grid points. Point t reads rows 20000 t .. 20000 t + 19999 of the
  edge-feature array, reads the four small parameter arrays whole, and writes rows
  20000 t .. 20000 t + 19999 of the result column. So what point t writes is exactly its block of
  the column of scores of the whole arrays, the 100 blocks tile the 2000000 rows, and after the
  last point the result array is that column.
-/
import proofs.«163263_j64476049047989_2_alg».proof.Proof.Gen.KernelIdeal.Frame
import proofs.«163263_j64476049047989_2_alg».proof.Proof.EdgeMlpPoint
import proofs.«163263_j64476049047989_2_alg».proof.Proof.EdgeMlpSpec
import Idealize.ShloMosaic.Lib.Pipeline.Value

set_option maxRecDepth 16384

noncomputable section

namespace Cert.EdgeMlp

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the result window are at row block t, the
    four parameter windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point t is rows 20000 t + r of the feature array. -/
theorem read_ef (c : Dev nD) (t : Fin cfg0.N) (r : Fin 20000) (f : Fin 8) (e : Fin 2000000)
    (he : e.val = t.val * 20000 + r.val) :
    (iblk0 V c 0 t : Vec Ideal S20000x8 .f32) (ix2 r f) = (V c main_arg10 : Vec Ideal S2000000x8 .f32) (ix2 e f) := by
  obtain ⟨e0, e1, -⟩ := idx_facts t
  unfold iblk0
  rw [View.read_apply]
  show V c main_arg10 (((cfg0.win 0).blk t).view.emb (ix2 r f)) = V c main_arg10 (ix2 e f)
  refine congrArg (V c main_arg10) (funext fun a => Fin.ext ?_)
  match a with
  | ⟨0, _⟩ => show win0_0.index t (0 : Fin 2) * 20000 + 1 * r.val = e.val; omega
  | ⟨1, _⟩ => show win0_0.index t (1 : Fin 2) * 8 + 1 * f.val = f.val; omega

/-- The first weight matrix is read whole at every point. -/
theorem read_w1 (c : Dev nD) (t : Fin cfg0.N) (p : Fin 8) (q : Fin 32) :
    (iblk0 V c 1 t : Vec Ideal S8x32 .f32) (ix2 p q) = (V c main_v0 : Vec Ideal S8x32 .f32) (ix2 p q) := by
  obtain ⟨-, -, e2, e3, e4, e5, e6, e7, e8, e9, -⟩ := idx_facts t
  unfold iblk0
  rw [View.read_apply]
  show V c main_v0 (((cfg0.win 1).blk t).view.emb (ix2 p q)) = V c main_v0 (ix2 p q)
  refine congrArg (V c main_v0) (funext fun a => Fin.ext ?_)
  match a with
  | ⟨0, _⟩ => show win0_1.index t (0 : Fin 2) * 8 + 1 * p.val = p.val; omega
  | ⟨1, _⟩ => show win0_1.index t (1 : Fin 2) * 32 + 1 * q.val = q.val; omega

/-- The first bias row is read whole at every point. -/
theorem read_b1 (c : Dev nD) (t : Fin cfg0.N) (p : Fin 1) (q : Fin 32) :
    (iblk0 V c 2 t : Vec Ideal S1x32 .f32) (ix2 p q) = (V c main_v1 : Vec Ideal S1x32 .f32) (ix2 p q) := by
  obtain ⟨-, -, e2, e3, e4, e5, e6, e7, e8, e9, -⟩ := idx_facts t
  unfold iblk0
  rw [View.read_apply]
  show V c main_v1 (((cfg0.win 2).blk t).view.emb (ix2 p q)) = V c main_v1 (ix2 p q)
  refine congrArg (V c main_v1) (funext fun a => Fin.ext ?_)
  match a with
  | ⟨0, _⟩ => show win0_2.index t (0 : Fin 2) * 1 + 1 * p.val = p.val; omega
  | ⟨1, _⟩ => show win0_2.index t (1 : Fin 2) * 32 + 1 * q.val = q.val; omega

/-- The second weight column is read whole at every point. -/
theorem read_w2 (c : Dev nD) (t : Fin cfg0.N) (p : Fin 32) (q : Fin 1) :
    (iblk0 V c 3 t : Vec Ideal S32x1 .f32) (ix2 p q) = (V c main_v2 : Vec Ideal S32x1 .f32) (ix2 p q) := by
  obtain ⟨-, -, e2, e3, e4, e5, e6, e7, e8, e9, -⟩ := idx_facts t
  unfold iblk0
  rw [View.read_apply]
  show V c main_v2 (((cfg0.win 3).blk t).view.emb (ix2 p q)) = V c main_v2 (ix2 p q)
  refine congrArg (V c main_v2) (funext fun a => Fin.ext ?_)
  match a with
  | ⟨0, _⟩ => show win0_3.index t (0 : Fin 2) * 32 + 1 * p.val = p.val; omega
  | ⟨1, _⟩ => show win0_3.index t (1 : Fin 2) * 1 + 1 * q.val = q.val; omega

/-- The second bias is read whole at every point. -/
theorem read_b2 (c : Dev nD) (t : Fin cfg0.N) (p : Fin 1) (q : Fin 1) :
    (iblk0 V c 4 t : Vec Ideal S1x1 .f32) (ix2 p q) = (V c main_v3 : Vec Ideal S1x1 .f32) (ix2 p q) := by
  obtain ⟨-, -, e2, e3, e4, e5, e6, e7, e8, e9, -⟩ := idx_facts t
  unfold iblk0
  rw [View.read_apply]
  show V c main_v3 (((cfg0.win 4).blk t).view.emb (ix2 p q)) = V c main_v3 (ix2 p q)
  refine congrArg (V c main_v3) (funext fun a => Fin.ext ?_)
  match a with
  | ⟨0, _⟩ => show win0_4.index t (0 : Fin 2) * 1 + 1 * p.val = p.val; omega
  | ⟨1, _⟩ => show win0_4.index t (1 : Fin 2) * 1 + 1 * q.val = q.val; omega

/-- The result window's block at point t sits at rows 20000 t + r of the result column. -/
theorem emb_out (t : Fin cfg0.N) (r : Fin 20000) (e : Fin 2000000) (he : e.val = t.val * 20000 + r.val) :
    ((cfg0.win 5).blk t).view.emb (ix2 r (0 : Fin 1)) = (ix2 e (0 : Fin 1) : S2000000x1.Idx) := by
  obtain ⟨-, -, -, -, -, -, -, -, -, -, e10, e11⟩ := idx_facts t
  refine funext fun a => Fin.ext ?_
  match a with
  | ⟨0, _⟩ => show win0_5.index t (0 : Fin 2) * 20000 + 1 * r.val = e.val; omega
  | ⟨1, _⟩ => show win0_5.index t (1 : Fin 2) * 1 + 1 * 0 = 0; omega

/-- What point t writes back is its block of the score column of the arrays the region finds. -/
theorem flushed_eq (c : Dev nD) (t : Fin cfg0.N) :
    (dat0 (F := Ideal) V c).flushed 5 t
      = ((cfg0.win 5).blk t).view.read (Elt Ideal)
          (scores (E := 2000000) (V c main_arg10 : Vec Ideal S2000000x8 .f32) (V c main_v0 : Vec Ideal S8x32 .f32)
            (V c main_v1 : Vec Ideal S1x32 .f32) (V c main_v2 : Vec Ideal S32x1 .f32) (V c main_v3 : Vec Ideal S1x1 .f32)) := by
  show (cfg0.win 5).cut (grid0.coords t) ((dat0 V c).after 5 t) = _
  rw [after0_5]
  unfold out0_5
  rw [View.canon_unit_zero hz]
  simp only [View.ld_unit_zero (S := S20000x8) hz, View.ld_unit_zero (S := S8x32) hz, View.ld_unit_zero (S := S1x32) hz,
    View.ld_unit_zero (S := S32x1) hz, View.ld_unit_zero (S := S1x1) hz]
  funext j
  obtain ⟨r, q, rfl⟩ : ∃ (r : Fin 20000) (q : Fin 1), j = ix2 r q := ⟨j 0, j 1, eq_ix2 j⟩
  obtain rfl : q = 0 := Subsingleton.elim _ _
  have hN : grid0.N = 100 := N_0
  have ht : t.val < 100 := hN ▸ t.isLt
  have he : (⟨t.val * 20000 + r.val, by have := r.isLt; omega⟩ : Fin 2000000).val = t.val * 20000 + r.val := rfl
  rw [View.read_apply, emb_out t r _ he, scores_apply]
  refine (pay_apply (iblk0 V c 0 t) (iblk0 V c 1 t) (iblk0 V c 2 t) (iblk0 V c 3 t) (iblk0 V c 4 t) r).trans ?_
  unfold score
  refine congrArg Ideal.logistic ?_
  refine congrArg₂ (· + ·) (Finset.sum_congr rfl fun h _ => ?_) (read_b2 V c t 0 0)
  refine congrArg₂ (· * ·) (congrArg₂ max (congrArg₂ (· + ·) (Finset.sum_congr rfl fun f _ => ?_) (read_b1 V c t 0 h)) rfl)
    (read_w2 V c t h 0)
  exact congrArg₂ (· * ·) (read_ef V c t r f _ he) (read_w1 V c t f h)

/-- An index of the result column is in point t's block iff its row is one of the block's 20000. -/
theorem mem_blk (t : Fin cfg0.N) (i : S2000000x1.Idx) :
    i ∈ ((cfg0.win 5).blk t).view.set ↔ ∀ a : Fin 2, win0_5.index t a * S20000x1.size a ≤ (i a).val
      ∧ (i a).val < win0_5.index t a * S20000x1.size a + S20000x1.size a := by
  show i ∈ ((View.whole main_v4).slice (win0_5.rect t)).set ↔ _
  rw [View.set_slice_whole, Rect.mem_set_unit]
  exact Iff.rfl

/-- The blocks tile the column: row e is in the block of point e / 20000. -/
theorem cover (i : S2000000x1.Idx) :
    ∃ t : Fin cfg0.N, (cfg0.win 5).flush t = true ∧ i ∈ ((cfg0.win 5).blk t).view.set := by
  have hi0 : (i 0).val < 2000000 := (i 0).isLt
  have hi1 : (i 1).val < 1 := (i 1).isLt
  have hN : grid0.N = 100 := N_0
  have hlt : (i 0).val / 20000 < grid0.N := by rw [hN]; omega
  obtain ⟨-, -, -, -, -, -, -, -, -, -, e10, e11⟩ := idx_facts ⟨(i 0).val / 20000, hlt⟩
  have e10' : win0_5.index ⟨(i 0).val / 20000, hlt⟩ (0 : Fin 2) = (i 0).val / 20000 := e10
  refine ⟨⟨(i 0).val / 20000, hlt⟩, flush0_5 _, ?_⟩
  rw [mem_blk]
  intro a
  match a with
  | ⟨0, _⟩ =>
    show win0_5.index ⟨(i 0).val / 20000, hlt⟩ (0 : Fin 2) * 20000 ≤ (i 0).val
      ∧ (i 0).val < win0_5.index ⟨(i 0).val / 20000, hlt⟩ (0 : Fin 2) * 20000 + 20000
    rw [e10']; omega
  | ⟨1, _⟩ =>
    show win0_5.index ⟨(i 0).val / 20000, hlt⟩ (1 : Fin 2) * 1 ≤ (i 1).val
      ∧ (i 1).val < win0_5.index ⟨(i 0).val / 20000, hlt⟩ (1 : Fin 2) * 1 + 1
    rw [e11]; omega

/-- After the last point the result array is the score column of the arrays the region found. -/
theorem kernel_array (c : Dev nD) :
    (dat0 (F := Ideal) V c).arrAt 5 cfg0.N
      = scores (E := 2000000) (V c main_arg10 : Vec Ideal S2000000x8 .f32) (V c main_v0 : Vec Ideal S8x32 .f32)
          (V c main_v1 : Vec Ideal S1x32 .f32) (V c main_v2 : Vec Ideal S32x1 .f32) (V c main_v3 : Vec Ideal S1x1 .f32) :=
  (dat0 (F := Ideal) V c).arrAt_eq_of_cover 5 _ (fun t _ => flushed_eq V c t) cover

end Cert.EdgeMlp

end
-- ==== Proof.EdgeMlpRef.lean ====
/-
  The host program's score column is the edge MLP of whole arrays.

  The reference computes, with whole-array host operations, a matrix product of the edge features
  with the first weight matrix, adds the broadcast bias row, takes the maximum with zero, multiplies
  by the second weight column, adds the broadcast bias, and forms 1 / (1 + exp(-x)). Read at one
  edge, over the extended reals, each matrix product is the plain sum over the contracted axis and
  1 / (1 + exp(-x)) is by definition the sigmoid: the column is the score function of the arrays.
-/
import proofs.«163263_j64476049047989_2_alg».proof.Proof.RefStages
import proofs.«163263_j64476049047989_2_alg».proof.Proof.EdgeMlpSpec
import Idealize.ShloMosaic.Lib.IdealHost

noncomputable section

namespace Cert.EdgeMlp

open Idealize.ShloMosaic Idealize.ShloMosaic.ValueIdx
open Cert.ReferenceIdeal Cert.ReferenceIdeal.ReadP

/-- The operand indices of the second matrix product at (e, 0) and hidden unit h. -/
theorem lidx7 (e : Fin 2000000) (h : Fin 32) : lidx_main_v7 (ix2 e (0 : Fin 1)) h = ix2 e h :=
  funext fun a => Fin.ext (by match a with | ⟨0, _⟩ => rfl | ⟨1, _⟩ => rfl)
theorem ridx7 (e : Fin 2000000) (h : Fin 32) : ridx_main_v7 (ix2 e (0 : Fin 1)) h = ix2 h (0 : Fin 1) :=
  funext fun a => Fin.ext (by match a with | ⟨0, _⟩ => rfl | ⟨1, _⟩ => rfl)
/-- The operand indices of the first matrix product at (e, h) and feature f. -/
theorem lidx1 (e : Fin 2000000) (h : Fin 32) (f : Fin 8) : lidx_main_v1 (ix2 e h) f = ix2 e f :=
  funext fun a => Fin.ext (by match a with | ⟨0, _⟩ => rfl | ⟨1, _⟩ => rfl)
theorem ridx1 (e : Fin 2000000) (h : Fin 32) (f : Fin 8) : ridx_main_v1 (ix2 e h) f = ix2 f h :=
  funext fun a => Fin.ext (by match a with | ⟨0, _⟩ => rfl | ⟨1, _⟩ => rfl)
/-- The bias row and the bias entry a broadcast reads. -/
theorem idx3 (e : Fin 2000000) (h : Fin 32) : idx_main_v3 (ix2 e h) = ix2 (0 : Fin 1) h :=
  funext fun a => Fin.ext (by match a with | ⟨0, _⟩ => rfl | ⟨1, _⟩ => rfl)
theorem idx9 (e : Fin 2000000) : idx_main_v9 (ix2 e (0 : Fin 1)) = ix2 (0 : Fin 1) (0 : Fin 1) :=
  funext fun a => Fin.ext (by match a with | ⟨0, _⟩ => rfl | ⟨1, _⟩ => rfl)

/-- The hidden layer of the reference at (e, h). -/
theorem hidden_apply (x6 : (⟨S32x8, .f32⟩ : BufTy).Contents (Elt Ideal)) (x7 : (⟨S32, .f32⟩ : BufTy).Contents (Elt Ideal))
    (x10 : (⟨S2000000x8, .f32⟩ : BufTy).Contents (Elt Ideal)) (e : Fin 2000000) (h : Fin 32) :
    val_main_v5 (F := Ideal) x6 x7 x10 (ix2 e h)
      = max ((∑ f : Fin 8, x10 (ix2 e f) * val_main_v0 (F := Ideal) x6 (ix2 f h)) + val_main_v2 (F := Ideal) x7 (ix2 (0 : Fin 1) h)) 0 := by
  rw [val_main_v5_apply, val_main_v4_apply, val_main_v1_apply, val_main_v3_apply, val_main_call0_v0_apply,
    val_main_call0_cst_apply, idx3]
  simp only [lidx1, ridx1]
  exact congrArg (max _) Ideal.ofBits_zero_f32

/-- The reference's score column read at edge e. -/
theorem ref_apply (x6 : (⟨S32x8, .f32⟩ : BufTy).Contents (Elt Ideal)) (x7 : (⟨S32, .f32⟩ : BufTy).Contents (Elt Ideal))
    (x8 : (⟨S1x32, .f32⟩ : BufTy).Contents (Elt Ideal)) (x9 : (⟨S1, .f32⟩ : BufTy).Contents (Elt Ideal))
    (x10 : (⟨S2000000x8, .f32⟩ : BufTy).Contents (Elt Ideal)) (e : Fin 2000000) :
    val_main_v16 (F := Ideal) x6 x7 x8 x9 x10 (ix2 e (0 : Fin 1))
      = score (val_main_v0 (F := Ideal) x6) (val_main_v2 (F := Ideal) x7) (val_main_v6 (F := Ideal) x8)
          (val_main_v8 (F := Ideal) x9) fun f => x10 (ix2 e f) := by
  rw [val_main_v16_apply, val_main_v15_apply, val_main_cst_0_apply, val_main_v14_apply, val_main_v13_apply,
    val_main_cst_apply, val_main_v12_apply, val_main_v11_apply, val_main_v10_apply, val_main_v7_apply,
    val_main_v9_apply, idx9]
  simp only [lidx7, ridx7, hidden_apply]
  unfold score Ideal.logistic
  show Ideal.div (Ideal.ofBits .f32 0x3F800000#32) (Ideal.ofBits .f32 0x3F800000#32 + Ideal.exp (-(_ + _))) = _
  rw [Ideal.ofBits_one_f32]

/-- The reference's score column is the score function of its arrays. -/
theorem ref_eq (x6 : (⟨S32x8, .f32⟩ : BufTy).Contents (Elt Ideal)) (x7 : (⟨S32, .f32⟩ : BufTy).Contents (Elt Ideal))
    (x8 : (⟨S1x32, .f32⟩ : BufTy).Contents (Elt Ideal)) (x9 : (⟨S1, .f32⟩ : BufTy).Contents (Elt Ideal))
    (x10 : (⟨S2000000x8, .f32⟩ : BufTy).Contents (Elt Ideal)) :
    val_main_v16 (F := Ideal) x6 x7 x8 x9 x10
      = scores (E := 2000000) x10 (val_main_v0 (F := Ideal) x6) (val_main_v2 (F := Ideal) x7)
          (val_main_v6 (F := Ideal) x8) (val_main_v8 (F := Ideal) x9) := by
  funext j
  obtain ⟨e, q, rfl⟩ : ∃ (e : Fin 2000000) (q : Fin 1), j = ix2 e q := ⟨j 0, j 1, eq_ix2 j⟩
  obtain rfl : q = 0 := Subsingleton.elim _ _
  rw [ref_apply, scores_apply]

end Cert.EdgeMlp

end
-- ==== Proof.EdgeMlpRegion.lean ====
/-
  The first region's result array is the reference's score column.

  After the 100 grid points the result array holds the score column of the arrays the region was
  entered with; the host program's corresponding stage is the same score column of its arguments.
  When the four parameter arrays the region finds are the reference's transposed and reshaped
  parameters, the two columns are one function of the edge-feature array.
-/
import proofs.«163263_j64476049047989_2_alg».proof.Proof.EdgeMlpArray
import proofs.«163263_j64476049047989_2_alg».proof.Proof.EdgeMlpRef

set_option maxRecDepth 16384

noncomputable section

open Idealize.ShloMosaic Idealize.ShloMosaic.TcCoe Idealize.SL.Sem

/-- The result array of the edge-MLP region, after its last grid point, is the reference's score
    stage of the edge-feature array the region was entered with. -/
theorem Cert.EdgeMlp.region_array
    (V : (c : Dev Cert.KernelIdeal.nD) → (b : Ref Cert.KernelIdeal.sig .tc) → Buf (Elt Ideal) ((c : Thread Cert.KernelIdeal.nD Cert.KernelIdeal.τ).loc b))
    (c : Dev Cert.KernelIdeal.nD)
    (x6 : (⟨Cert.ReferenceIdeal.S32x8, .f32⟩ : BufTy).Contents (Elt Ideal))
    (x7 : (⟨Cert.ReferenceIdeal.S32, .f32⟩ : BufTy).Contents (Elt Ideal))
    (x8 : (⟨Cert.ReferenceIdeal.S1x32, .f32⟩ : BufTy).Contents (Elt Ideal))
    (x9 : (⟨Cert.ReferenceIdeal.S1, .f32⟩ : BufTy).Contents (Elt Ideal))
    (h0 : V c Cert.KernelIdeal.main_v0 = Cert.ReferenceIdeal.ReadP.val_main_v0 (F := Ideal) x6)
    (h1 : V c Cert.KernelIdeal.main_v1 = Cert.ReferenceIdeal.ReadP.val_main_v2 (F := Ideal) x7)
    (h2 : V c Cert.KernelIdeal.main_v2 = Cert.ReferenceIdeal.ReadP.val_main_v6 (F := Ideal) x8)
    (h3 : V c Cert.KernelIdeal.main_v3 = Cert.ReferenceIdeal.ReadP.val_main_v8 (F := Ideal) x9) :
    (Cert.KernelIdeal.Gen.dat0 (F := Ideal) V c).arrAt 5 Cert.KernelIdeal.cfg0.N
      = Cert.ReferenceIdeal.ReadP.val_main_v16 (F := Ideal) x6 x7 x8 x9 (V c Cert.KernelIdeal.main_arg10) := by
  rw [Cert.EdgeMlp.kernel_array V c, h0, h1, h2, h3]
  exact (Cert.EdgeMlp.ref_eq x6 x7 x8 x9 (V c Cert.KernelIdeal.main_arg10)).symm

end
-- ==== Proof.ItemFusionRow.lean ====
/-
  One row of the item-fusion stage, as a function of that row alone.

  The stage takes, for every item, the sum `a` of three 64-vectors (the item's audio features and
  the two gathered embedding rows), applies the adapter `a ↦ a · W + b` (a 64 × 64 matrix and a bias
  row) and divides the projected row by its Euclidean norm, the norm clipped from below at a small
  positive constant. Row `i` of the result depends on row `i` of the three inputs only: that is why
  a tiling of the items into blocks of rows computes the same array as the whole-array program.

  Here the row function is stated once, over the extended reals, and beside it the two "column"
  layout facts the kernel's spelling of the norm needs: a vector of `a` entries recast as an
  `a × 1` column, and such a column repeated along `b` lanes.
-/
import Idealize.ShloMosaic.Lib.ValueIdx
import Idealize.ShloMosaic.Lib.Pipeline.Value

noncomputable section

open scoped BigOperators

namespace Cert.ItemFusion

open Idealize.ShloMosaic Idealize.ShloMosaic.ValueIdx

/-- The adapter's projection of one fused row `a`: entry `q` is `∑ₖ a k · W k q + b q`. -/
def proj (a : Fin 64 → EReal) (W : Fin 64 → Fin 64 → EReal) (b : Fin 64 → EReal) (q : Fin 64) : EReal :=
  (∑ k : Fin 64, a k * W k q) + b q

/-- The stage's result on one row: the projected row over its norm `√(∑ₖ pₖ²)`, the norm clipped
    below at the constant whose binary32 word is `0x2B8CBCCC`. -/
def rowOut (a : Fin 64 → EReal) (W : Fin 64 → Fin 64 → EReal) (b : Fin 64 → EReal) (q : Fin 64) : EReal :=
  Ideal.div (proj a W b q)
    (max (Ideal.sqrt (∑ k : Fin 64, proj a W b k * proj a W b k)) (Ideal.ofBits .f32 0x2B8CBCCC#32))

variable {α : Type}

/-- A vector of `a` entries recast as an `a × 1` column reads, at `(p, z)`, the vector's entry `p`:
    the two positions have the same row-major rank `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An `a × 1` column repeated along `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ItemFusion

end
-- ==== Proof.ItemFusionPoint.lean ====
/-
  What one grid point of the item-fusion region stores, read at an entry of its block.

  The body adds its three 2000 × 64 input blocks, multiplies by the 64 × 64 adapter block on the
  matrix unit into a zero accumulator, adds the bias row, and divides each row by its clipped norm.
  At the extended reals the two changes of float format are the identity, the matrix product into
  zero is the plain sum over the contracted axis and the lane reduction from zero is the plain row
  sum; so entry `(r, q)` of the stored block is the row function `rowOut` of row `r` of the three
  input blocks, the adapter block and the bias row, at lane `q`.
-/
import proofs.«163263_j64476049047989_2_alg».proof.Proof.Gen.KernelIdeal.Skeleton
import proofs.«163263_j64476049047989_2_alg».proof.Proof.ItemFusionRow
import Idealize.ShloMosaic.PureOps.Ideal.Laws
import Idealize.ShloMosaic.Lib.ValueLayout

noncomputable section

open scoped BigOperators

namespace Cert.ItemFusion

open Idealize.ShloMosaic Idealize.ShloMosaic.ValueIdx Cert.KernelIdeal Cert.KernelIdeal.Gen

/-! ## The matrix product at an entry -/

theorem lhs_row (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_contr (i : S2000x64.Idx) (k : dot_S2000x64_S64x64_S2000x64_1_0_0_1_n_n.contr.Idx) :
    (dot_S2000x64_S64x64_S2000x64_1_0_0_1_n_n.lhsIdx i k 1).val = (k ⟨0, by decide⟩).val :=
  dot_S2000x64_S64x64_S2000x64_1_0_0_1_n_n.lhsIdx_val_of_single rfl i k
theorem rhs_contr (i : S2000x64.Idx) (k : dot_S2000x64_S64x64_S2000x64_1_0_0_1_n_n.contr.Idx) :
    (dot_S2000x64_S64x64_S2000x64_1_0_0_1_n_n.rhsIdx i k 0).val = (k ⟨0, by decide⟩).val :=
  dot_S2000x64_S64x64_S2000x64_1_0_0_1_n_n.rhsIdx_val_of_single rfl i k
theorem rhs_lane (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The 2000 × 64 by 64 × 64 product into a zero accumulator, at `(r, q)`: `∑ₖ l (r, k) · w (k, q)`. -/
theorem matmul_zero_apply {φ₁ φ₂ : FTy} (l : FVec Ideal S2000x64 φ₁) (w : FVec Ideal S64x64 φ₂) (r : Fin 2000) (q : Fin 64) :
    matmul dot_S2000x64_S64x64_S2000x64_1_0_0_1_n_n none l w (constant (F := Ideal) S2000x64 .f32 0x00000000#32) (ix2 r q)
      = ∑ k : Fin 64, l (ix2 r k) * w (ix2 k q) := by
  show FloatOps.matmul dot_S2000x64_S64x64_S2000x64_1_0_0_1_n_n none l w (constant (F := Ideal) S2000x64 .f32 0x00000000#32) (ix2 r q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r q) ((contrEquiv1 dot_S2000x64_S64x64_S2000x64_1_0_0_1_n_n 64 rfl rfl).symm k) = ix2 r k := funext fun a => Fin.ext (by
    match a with
    | ⟨0, _⟩ => exact lhs_row _ _
    | ⟨1, _⟩ => exact (lhs_contr _ _).trans hk)
  have er : dot_S2000x64_S64x64_S2000x64_1_0_0_1_n_n.rhsIdx (ix2 r q) ((contrEquiv1 dot_S2000x64_S64x64_S2000x64_1_0_0_1_n_n 64 rfl rfl).symm k) = ix2 k q := funext fun a => Fin.ext (by
    match a with
    | ⟨0, _⟩ => exact (rhs_contr _ _).trans hk
    | ⟨1, _⟩ => exact rhs_lane _ _)
  rw [el, er]

/-! ## The lane reduction at a row -/

/-- The sum over the 64 lanes, from zero, at row `r`: `∑ₖ src (r, k)`. -/
theorem rowSum_apply (src : FVec Ideal S2000x64 .f32) (r : Fin 2000) :
    multiReduction (F := Ideal) .add [1] S2000 src 0x00000000#32 reduces_S2000x64_S2000 (.inl rfl) rfl (ix1 r)
      = ∑ k : Fin 64, src (ix2 r k) := by
  refine (Ideal.multiReduction_add_single src 0x00000000#32 reduces_S2000x64_S2000 (.inl rfl) rfl (ix1 r)).trans ?_
  show ∑ k : Fin 64, src (reduces_S2000x64_S2000.lift (ix1 r) k) = _
  refine Finset.sum_congr rfl fun k _ => congrArg src (funext fun a => Fin.ext ?_)
  match a with
  | ⟨0, _⟩ => rfl
  | ⟨1, _⟩ => rfl

/-! ## The projected block, and the stored block -/

/-- The block after the adapter: `(x0 + x1 + x2) · w + b`, the bias row repeated down the rows. -/
def projBlk (x0 x1 x2 : Vec Ideal S2000x64 .f32) (w : Vec Ideal S64x64 .f32) (b : Vec Ideal S1x64 .f32) : FVec Ideal S2000x64 .f32 :=
  addf (matmul dot_S2000x64_S64x64_S2000x64_1_0_0_1_n_n none (truncf .bf16 (addf (addf x0 x1) x2) bitsLt_bf16_f32) (truncf .bf16 w bitsLt_bf16_f32)
      (constant (F := Ideal) S2000x64 .f32 0x00000000#32))
    (broadcastTo S2000x64 b broadcasts_S1x64_S2000x64)

/-- Entry `(r, q)` of the projected block is the projection of row `r` at lane `q`. -/
theorem projBlk_apply (x0 x1 x2 : Vec Ideal S2000x64 .f32) (w : Vec Ideal S64x64 .f32) (b : Vec Ideal S1x64 .f32) (r : Fin 2000) (q : Fin 64) :
    projBlk x0 x1 x2 w b (ix2 r q)
      = proj (fun k => x0 (ix2 r k) + x1 (ix2 r k) + x2 (ix2 r k)) (fun k q => w (ix2 k q)) (fun q => b (ix2 (0 : Fin 1) q)) q := by
  unfold projBlk proj
  rw [addf_apply, matmul_zero_apply]
  refine congrArg (_ + ·) ?_
  exact broadcastTo_1b_ab_apply b broadcasts_S1x64_S2000x64 r q

/-- The stored payload is the projected block over its rows' clipped norms (the shape casts of the
    body that keep the shape are the identity). -/
theorem pay_eq (x0 x1 x2 : Vec Ideal S2000x64 .f32) (w : Vec Ideal S64x64 .f32) (b : Vec Ideal S1x64 .f32) :
    k1_pay1 (F := Ideal) x0 x1 x2 w b
      = divf (projBlk x0 x1 x2 w b)
          (broadcastTo S2000x64
            (maximumf
              (sqrt (shapeCast S2000x1
                (multiReduction (F := Ideal) .add [1] S2000 (mulf (projBlk x0 x1 x2 w b) (projBlk x0 x1 x2 w b)) 0x00000000#32 reduces_S2000x64_S2000 (.inl rfl) rfl)
                shapeCasts_S2000_S2000x1))
              (broadcast S2000x1 (Scalar.ofBits (F := Ideal) .f32 0x2B8CBCCC#32)))
            broadcasts_S2000x1_S2000x64) := by
  unfold k1_pay1 projBlk
  simp only [shapeCast_self]

/-- THE POINT LEMMA: entry `(r, q)` of what the body stores is `rowOut` of row `r` of the three input
    blocks, the adapter block and the bias row, at lane `q`. -/
theorem pay_apply (x0 x1 x2 : Vec Ideal S2000x64 .f32) (w : Vec Ideal S64x64 .f32) (b : Vec Ideal S1x64 .f32) (r : Fin 2000) (q : Fin 64) :
    k1_pay1 (F := Ideal) x0 x1 x2 w b (ix2 r q)
      = rowOut (fun k => x0 (ix2 r k) + x1 (ix2 r k) + x2 (ix2 r k)) (fun k q => w (ix2 k q)) (fun q => b (ix2 (0 : Fin 1) q)) q := by
  rw [pay_eq]
  unfold rowOut
  show Ideal.div (projBlk x0 x1 x2 w b (ix2 r q)) (broadcastTo S2000x64 _ broadcasts_S2000x1_S2000x64 (ix2 r q)) = _
  rw [projBlk_apply]
  refine congrArg (Ideal.div _) ?_
  refine (broadcastTo_a1_ab_apply _ broadcasts_S2000x1_S2000x64 r q).trans ?_
  show max (Ideal.sqrt (shapeCast S2000x1 _ shapeCasts_S2000_S2000x1 (ix2 r (0 : Fin 1)))) (Ideal.ofBits .f32 0x2B8CBCCC#32) = _
  refine congrArg (fun z => max (Ideal.sqrt z) (Ideal.ofBits .f32 0x2B8CBCCC#32)) ?_
  refine (shapeCast_a_a1_apply _ shapeCasts_S2000_S2000x1 r 0).trans ?_
  refine (rowSum_apply _ r).trans ?_
  refine Finset.sum_congr rfl fun k _ => ?_
  show projBlk x0 x1 x2 w b (ix2 r k) * projBlk x0 x1 x2 w b (ix2 r k) = _
  rw [projBlk_apply]

end Cert.ItemFusion

end
-- ==== Proof.ItemFusionBlocks.lean ====
/-
  From the blocks the grid points write to the whole output array of the item-fusion region.

  The grid has 50 points; point `t` reads rows `2000 t … 2000 t + 1999` of the three 100000 × 64
  inputs, the whole 64 × 64 adapter and the whole 1 × 64 bias row, and writes the same rows of the
  output. A block's entry `(r, k)` is the array's entry `(2000 t + r, k)` (block index times block
  size plus the coordinate inside the block; the whole-array windows sit at block index zero). With
  the point lemma, what point `t` writes back is therefore rows `2000 t …` of ONE function of the
  input arrays — the row function applied to every row — and since row `i` lies in the block of
  point `i / 2000`, the blocks cover the array and the array ends holding that function.
-/
import proofs.«163263_j64476049047989_2_alg».proof.Proof.Gen.KernelIdeal.Frame
import proofs.«163263_j64476049047989_2_alg».proof.Proof.ItemFusionPoint
import Idealize.ShloMosaic.Lib.Pipeline.Value

noncomputable section

open scoped BigOperators

namespace Cert.ItemFusion

open Idealize.ShloMosaic Idealize.ShloMosaic.TcCoe Idealize.ShloMosaic.ValueIdx Cert.KernelIdeal Cert.KernelIdeal.Gen Idealize.SL.Sem

open Idealize.ShloMosaic.Pipeline (Dat)

/-- The zero offsets of a whole-buffer access, as the constant function. -/
theorem hz : (![0, 0] : Fin 2 → Nat) = fun _ => 0 := funext fun a => by fin_cases a <;> rfl

/-- The stage over whole arrays, by coordinates: entry `(i, q)` is the row function of row `i` of the
    three summands `a0`, `a1`, `a2`, the adapter `w` and the bias row `b`, at lane `q`. -/
def rowG (a0 a1 a2 : S100000x64.Idx → EReal) (w : S64x64.Idx → EReal) (b : S1x64.Idx → EReal) (i : Fin 100000) (q : Fin 64) : EReal :=
  rowOut (fun k => a0 (ix2 i k) + a1 (ix2 i k) + a2 (ix2 i k)) (fun k q => w (ix2 k q)) (fun q => b (ix2 (0 : Fin 1) q)) q

/-- The same as an array: the function of the index `j = (j 0, j 1)`. -/
def G (a0 a1 a2 : S100000x64.Idx → EReal) (w : S64x64.Idx → EReal) (b : S1x64.Idx → EReal) : S100000x64.Idx → EReal :=
  fun j => rowG a0 a1 a2 w b (j 0) (j 1)

/-- The index maps, decided over the 50 grid points: the three row-blocked inputs and the output sit at
    block `(t, 0)`, the adapter and the bias row at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Entry `(r, k)` of the audio features' block at point `t` is the array's entry `(2000 t + r, k)`. -/
theorem iblk0_apply (c : Dev nD) (t : Fin cfg1.N) (r : Fin 2000) (k : Fin 64) (hi : t.val * 2000 + r.val < 100000) :
    (iblk1 V c 0 t : Vec Ideal S2000x64 .f32) (ix2 r k)
      = (V c main_arg3 : S100000x64.Idx → Elt Ideal .f32) (ix2 ⟨t.val * 2000 + r.val, hi⟩ k) := by
  obtain ⟨e0, e1, -⟩ := idx_facts t
  show V c main_arg3 (((cfg1.win 0).blk t).view.emb (ix2 r k)) = _
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 64 + 1 * k.val = k.val; omega

/-- The same for the first gathered table's block. -/
theorem iblk1_apply (c : Dev nD) (t : Fin cfg1.N) (r : Fin 2000) (k : Fin 64) (hi : t.val * 2000 + r.val < 100000) :
    (iblk1 V c 1 t : Vec Ideal S2000x64 .f32) (ix2 r k)
      = (V c main_v12 : S100000x64.Idx → Elt Ideal .f32) (ix2 ⟨t.val * 2000 + r.val, hi⟩ k) := by
  obtain ⟨-, -, e0, e1, -⟩ := idx_facts t
  show V c main_v12 (((cfg1.win 1).blk t).view.emb (ix2 r k)) = _
  refine congrArg _ (funext fun a => Fin.ext ?_)
  match a with
  | ⟨0, _⟩ => show win1_1.index t (0 : Fin 2) * 2000 + 1 * r.val = t.val * 2000 + r.val; omega
  | ⟨1, _⟩ => show win1_1.index t (1 : Fin 2) * 64 + 1 * k.val = k.val; omega

/-- The same for the second gathered table's block. -/
theorem iblk2_apply (c : Dev nD) (t : Fin cfg1.N) (r : Fin 2000) (k : Fin 64) (hi : t.val * 2000 + r.val < 100000) :
    (iblk1 V c 2 t : Vec Ideal S2000x64 .f32) (ix2 r k)
      = (V c main_v19 : S100000x64.Idx → Elt Ideal .f32) (ix2 ⟨t.val * 2000 + r.val, hi⟩ k) := by
  obtain ⟨-, -, -, -, e0, e1, -⟩ := idx_facts t
  show V c main_v19 (((cfg1.win 2).blk t).view.emb (ix2 r k)) = _
  refine congrArg _ (funext fun a => Fin.ext ?_)
  match a with
  | ⟨0, _⟩ => show win1_2.index t (0 : Fin 2) * 2000 + 1 * r.val = t.val * 2000 + r.val; omega
  | ⟨1, _⟩ => show win1_2.index t (1 : Fin 2) * 64 + 1 * k.val = k.val; omega

/-- The adapter's block is the whole adapter at every point. -/
theorem iblk3_apply (c : Dev nD) (t : Fin cfg1.N) (k : Fin 64) (q : Fin 64) :
    (iblk1 V c 3 t : Vec Ideal S64x64 .f32) (ix2 k q) = (V c main_v20 : S64x64.Idx → Elt Ideal .f32) (ix2 k q) := by
  obtain ⟨-, -, -, -, -, -, e0, e1, -⟩ := idx_facts t
  show V c main_v20 (((cfg1.win 3).blk t).view.emb (ix2 k q)) = _
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- The bias row's block is the whole row at every point. -/
theorem iblk4_apply (c : Dev nD) (t : Fin cfg1.N) (z : Fin 1) (q : Fin 64) :
    (iblk1 V c 4 t : Vec Ideal S1x64 .f32) (ix2 z q) = (V c main_v21 : S1x64.Idx → Elt Ideal .f32) (ix2 z q) := by
  obtain ⟨-, -, -, -, -, -, -, -, e0, e1, -⟩ := idx_facts t
  show V c main_v21 (((cfg1.win 4).blk t).view.emb (ix2 z q)) = _
  refine congrArg _ (funext fun a => Fin.ext ?_)
  match a with
  | ⟨0, _⟩ => show win1_4.index t (0 : Fin 2) * 1 + 1 * z.val = z.val; omega
  | ⟨1, _⟩ => show win1_4.index t (1 : Fin 2) * 64 + 1 * q.val = q.val; omega

/-- What point `t` stores at `(r, q)` of its block is the whole-array function at `(2000 t + r, q)`. -/
theorem point_eq (c : Dev nD) (t : Fin cfg1.N) (r : Fin 2000) (q : Fin 64) (hi : t.val * 2000 + r.val < 100000) :
    k1_pay1 (F := Ideal) (iblk1 V c 0 t) (iblk1 V c 1 t) (iblk1 V c 2 t) (iblk1 V c 3 t) (iblk1 V c 4 t) (ix2 r q)
      = rowG (V c main_arg3) (V c main_v12) (V c main_v19) (V c main_v20) (V c main_v21) ⟨t.val * 2000 + r.val, hi⟩ q := by
  refine (pay_apply (iblk1 V c 0 t) (iblk1 V c 1 t) (iblk1 V c 2 t) (iblk1 V c 3 t) (iblk1 V c 4 t) r q).trans ?_
  unfold rowG
  refine congrFun (congr (congr (congrArg rowOut (funext fun k => ?_)) (funext fun k => funext fun q' => ?_)) (funext fun q' => ?_)) q
  · exact congrArg₂ (· + ·) (congrArg₂ (· + ·) (iblk0_apply V c t r k hi) (iblk1_apply V c t r k hi)) (iblk2_apply V c t r k hi)
  · exact iblk3_apply V c t k q'
  · exact iblk4_apply V c t 0 q'

/-- WHAT POINT `t` WRITES BACK is block `t` of the whole-array function. -/
theorem flushed_eq (c : Dev nD) (t : Fin cfg1.N) :
    (dat1 V c).flushed 5 t = ((cfg1.win 5).blk t).view.read (Elt Ideal)
      (G (V c main_arg3) (V c main_v12) (V c main_v19) (V c main_v20) (V c main_v21)) := by
  show (cfg1.win 5).cut (grid1.coords t) ((dat1 V c).after 5 t) = _
  rw [after1_5]
  unfold out1_5
  rw [View.canon_unit_zero hz]
  simp only [View.ld_unit_zero (S := S2000x64) hz, View.ld_unit_zero (S := S64x64) hz, View.ld_unit_zero (S := S1x64) hz]
  obtain ⟨-, -, -, -, -, -, -, -, -, -, e0, e1⟩ := idx_facts t
  have ht : t.val < 50 := Nat.lt_of_lt_of_eq t.isLt N_1
  funext j
  have hj0 : (j 0).val < 2000 := (j 0).isLt
  have hj1 : (j 1).val < 64 := (j 1).isLt
  have hi : t.val * 2000 + (j 0).val < 100000 := by omega
  have ej : (j : S2000x64.Idx) = ix2 (⟨(j 0).val, hj0⟩ : Fin 2000) (⟨(j 1).val, hj1⟩ : Fin 64) :=
    funext fun a => by match a with | ⟨0, _⟩ => rfl | ⟨1, _⟩ => rfl
  have key := point_eq V c t ⟨(j 0).val, hj0⟩ ⟨(j 1).val, hj1⟩ hi
  have h0 : ((((cfg1.win 5).blk t).view.emb j) 0 : Fin 100000) = ⟨t.val * 2000 + (j 0).val, hi⟩ :=
    Fin.ext (by show win1_5.index t (0 : Fin 2) * 2000 + 1 * (j 0).val = t.val * 2000 + (j 0).val; omega)
  have h1 : ((((cfg1.win 5).blk t).view.emb j) 1 : Fin 64) = ⟨(j 1).val, hj1⟩ :=
    Fin.ext (by show win1_5.index t (1 : Fin 2) * 64 + 1 * (j 1).val = (j 1).val; omega)
  show k1_pay1 (F := Ideal) (iblk1 V c 0 t) (iblk1 V c 1 t) (iblk1 V c 2 t) (iblk1 V c 3 t) (iblk1 V c 4 t) j
      = rowG (V c main_arg3) (V c main_v12) (V c main_v19) (V c main_v20) (V c main_v21)
          ((((cfg1.win 5).blk t).view.emb j) 0) ((((cfg1.win 5).blk t).view.emb j) 1)
  exact ((congrArg _ ej).trans key).trans (congr (congrArg _ h0.symm) h1.symm)

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v22).slice (win1_5.rect t)).set ↔ _
  rw [View.set_slice_whole, Rect.mem_set_unit]
  exact Iff.rfl

/-- Every row of the array lies in the block of the point `row / 2000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 50 := N_1
  let t : Fin cfg1.N := ⟨(i 0).val / 2000, by show (i 0).val / 2000 < grid1.N; rw [hN]; omega⟩
  obtain ⟨-, -, -, -, -, -, -, -, -, -, e0, e1⟩ := idx_facts t
  have tv : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE ARRAY after the region: the whole-array function of the arrays the region found. -/
theorem region_blocks (c : Dev nD) :
    (dat1 V c).arrAt 5 cfg1.N = G (V c main_arg3) (V c main_v12) (V c main_v19) (V c main_v20) (V c main_v21) :=
  (dat1 V c).arrAt_eq_of_cover 5 (G (V c main_arg3) (V c main_v12) (V c main_v19) (V c main_v20) (V c main_v21))
    (fun t _ => flushed_eq V c t) cover

end Cert.ItemFusion

end
-- ==== Proof.ItemFusionRef.lean ====
/-
  The whole-array program's item-fusion stage, read at an entry.

  The reference computes the same stage on the whole 100000 × 64 arrays: the sum of the audio
  features and the two gathered embedding tables, a `dot_general` with the transposed adapter, the
  bias broadcast down the rows, the squared entries summed along each row, the square root, the
  maximum with the clipping constant, and the quotient. Read at `(i, q)`, every one of these steps
  looks only at row `i` of its operand, and the chain is the row function `rowOut` of row `i` of the
  three summands, the transposed adapter and the bias row. The two gathered tables, the transposed
  adapter and the bias row are kept as they are: both programs read the same arrays there.
-/
import proofs.«163263_j64476049047989_2_alg».proof.Proof.RefStages
import proofs.«163263_j64476049047989_2_alg».proof.Proof.ItemFusionRow

noncomputable section

open scoped BigOperators

namespace Cert.ItemFusion

open Idealize.ShloMosaic Idealize.ShloMosaic.ValueIdx Cert.ReferenceIdeal Cert.ReferenceIdeal.ReadP

/-- The projected array (the adapter applied to the fused rows, plus the bias) at `(i, q)`. -/
theorem ref_proj_apply (x1 : (⟨S20000x64, .f32⟩ : BufTy).Contents (Elt Ideal)) (x2 : (⟨S30000x64, .f32⟩ : BufTy).Contents (Elt Ideal)) (x3 : (⟨S100000x64, .f32⟩ : BufTy).Contents (Elt Ideal)) (x4 : (⟨S64x64, .f32⟩ : BufTy).Contents (Elt Ideal)) (x5 : (⟨S64, .f32⟩ : BufTy).Contents (Elt Ideal)) (x13 x14 : (⟨S100000, .i32⟩ : BufTy).Contents (Elt Ideal)) (i : Fin 100000) (q : Fin 64) :
    val_main_v38 (F := Ideal) x1 x2 x3 x4 x5 x13 x14 (ix2 i q)
      = proj (fun k => x3 (ix2 i k) + val_main_v24 (F := Ideal) x1 x13 (ix2 i k) + val_main_v32 (F := Ideal) x2 x14 (ix2 i k))
          (fun k q => val_main_v34 (F := Ideal) x4 (ix2 k q)) (fun q => val_main_v36 (F := Ideal) x5 (ix2 (0 : Fin 1) q)) q := by
  have e1 : ∀ k : Fin 64, lidx_main_v35 (ix2 i q) k = ix2 i k := fun k => funext fun a => Fin.ext (by
    match a with | ⟨0, _⟩ => rfl | ⟨1, _⟩ => rfl)
  have e2 : ∀ k : Fin 64, ridx_main_v35 (ix2 i q) k = ix2 k q := fun k => funext fun a => Fin.ext (by
    match a with | ⟨0, _⟩ => rfl | ⟨1, _⟩ => rfl)
  have e3 : idx_main_v37 (ix2 i q) = ix2 (0 : Fin 1) q := funext fun a => Fin.ext (by
    match a with | ⟨0, _⟩ => rfl | ⟨1, _⟩ => rfl)
  rw [val_main_v38_apply, val_main_v35_apply, val_main_v37_apply]
  simp only [e1, e2, e3, val_main_v33_apply, val_main_v25_apply, Ideal.addf_def]
  rfl

/-- THE REFERENCE'S STAGE at `(i, q)`: `rowOut` of row `i`. -/
theorem ref_apply (x1 : (⟨S20000x64, .f32⟩ : BufTy).Contents (Elt Ideal)) (x2 : (⟨S30000x64, .f32⟩ : BufTy).Contents (Elt Ideal)) (x3 : (⟨S100000x64, .f32⟩ : BufTy).Contents (Elt Ideal)) (x4 : (⟨S64x64, .f32⟩ : BufTy).Contents (Elt Ideal)) (x5 : (⟨S64, .f32⟩ : BufTy).Contents (Elt Ideal)) (x13 x14 : (⟨S100000, .i32⟩ : BufTy).Contents (Elt Ideal)) (i : Fin 100000) (q : Fin 64) :
    val_main_v46 (F := Ideal) x1 x2 x3 x4 x5 x13 x14 (ix2 i q)
      = rowOut (fun k => x3 (ix2 i k) + val_main_v24 (F := Ideal) x1 x13 (ix2 i k) + val_main_v32 (F := Ideal) x2 x14 (ix2 i k))
          (fun k q => val_main_v34 (F := Ideal) x4 (ix2 k q)) (fun q => val_main_v36 (F := Ideal) x5 (ix2 (0 : Fin 1) q)) q := by
  have e45 : idx_main_v45 (ix2 i q) = ix2 i (0 : Fin 1) := funext fun a => Fin.ext (by
    match a with | ⟨0, _⟩ => rfl | ⟨1, _⟩ => rfl)
  have e41 : idx_main_v41 (ix2 i (0 : Fin 1)) = ix1 i := funext fun a => Fin.ext (by
    match a with | ⟨0, _⟩ => rfl)
  have e40 : ∀ k : Fin 64, idx_main_v40 (ix1 i) k = ix2 i k := fun k => funext fun a => Fin.ext (by
    match a with | ⟨0, _⟩ => rfl | ⟨1, _⟩ => rfl)
  rw [val_main_v46_apply, val_main_v45_apply, e45, val_main_v44_apply, val_main_v42_apply, val_main_v41_apply, e41,
    val_main_v40_apply, val_main_v43_apply, val_main_cst_5_apply, val_main_cst_4_apply]
  simp only [e40, val_main_v39_apply, ref_proj_apply, Ideal.hostDivf_def, Ideal.hostUnary_sqrt_def, Ideal.maximumf_def,
    Ideal.mulf_def, Ideal.ofBits_def, Ideal.ofBits_zero_f32, zero_add]
  rfl

end Cert.ItemFusion

end
-- ==== Proof.ItemFusionArray.lean ====
/-
  The item-fusion region's output array is the whole-array program's stage.

  The region's blocks tile the 100000 rows, 2000 at a time, and each point writes the rows of its
  block as the row function of the same rows of the inputs; so the array the region leaves is the
  row function applied to every row of the arrays it found. The whole-array program's stage, read
  at an entry, is the same row function of the same row. When the four arrays that host operations
  prepared before the region (the two gathered tables, the transposed adapter, the bias as a row)
  hold the reference's corresponding stages, the two arrays are equal entry by entry. Nothing is
  asked of the values: both sides apply the same operations in the same order to the same entries.
-/
import proofs.«163263_j64476049047989_2_alg».proof.Proof.ItemFusionBlocks
import proofs.«163263_j64476049047989_2_alg».proof.Proof.ItemFusionRef

noncomputable section

namespace Cert.ItemFusion

open Idealize.ShloMosaic Idealize.ShloMosaic.TcCoe Idealize.ShloMosaic.ValueIdx Idealize.SL.Sem

/-- The row function over whole arrays IS the reference's stage, when its five arrays are the
    reference's audio features, gathered tables, transposed adapter and bias row. -/
theorem G_eq_ref (x1 : (⟨Cert.ReferenceIdeal.S20000x64, .f32⟩ : BufTy).Contents (Elt Ideal)) (x2 : (⟨Cert.ReferenceIdeal.S30000x64, .f32⟩ : BufTy).Contents (Elt Ideal))
    (x3 : (⟨Cert.ReferenceIdeal.S100000x64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x13 x14 : (⟨Cert.ReferenceIdeal.S100000, .i32⟩ : BufTy).Contents (Elt Ideal)) :
    G x3 (Cert.ReferenceIdeal.ReadP.val_main_v24 (F := Ideal) x1 x13) (Cert.ReferenceIdeal.ReadP.val_main_v32 (F := Ideal) x2 x14)
        (Cert.ReferenceIdeal.ReadP.val_main_v34 (F := Ideal) x4) (Cert.ReferenceIdeal.ReadP.val_main_v36 (F := Ideal) x5)
      = Cert.ReferenceIdeal.ReadP.val_main_v46 (F := Ideal) x1 x2 x3 x4 x5 x13 x14 := by
  funext j
  obtain ⟨i, q, rfl⟩ : ∃ (i : Fin 100000) (q : Fin 64), j = ix2 i q := ⟨j 0, j 1, eq_ix2 j⟩
  exact (ref_apply x1 x2 x3 x4 x5 x13 x14 i q).symm

/-- THE REGION'S ARRAY: after the region the output window's array holds the reference's stage of
    the audio features the region found and of the reference's arguments behind the four prepared
    arrays. -/
theorem region_array (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x1 : (⟨Cert.ReferenceIdeal.S20000x64, .f32⟩ : BufTy).Contents (Elt Ideal)) (x2 : (⟨Cert.ReferenceIdeal.S30000x64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x13 x14 : (⟨Cert.ReferenceIdeal.S100000, .i32⟩ : BufTy).Contents (Elt Ideal))
    (h12 : V c Cert.KernelIdeal.main_v12 = Cert.ReferenceIdeal.ReadP.val_main_v24 (F := Ideal) x1 x13)
    (h19 : V c Cert.KernelIdeal.main_v19 = Cert.ReferenceIdeal.ReadP.val_main_v32 (F := Ideal) x2 x14)
    (h20 : V c Cert.KernelIdeal.main_v20 = Cert.ReferenceIdeal.ReadP.val_main_v34 (F := Ideal) x4)
    (h21 : V c Cert.KernelIdeal.main_v21 = Cert.ReferenceIdeal.ReadP.val_main_v36 (F := Ideal) x5) :
    (Cert.KernelIdeal.Gen.dat1 (F := Ideal) V c).arrAt 5 Cert.KernelIdeal.cfg1.N
      = Cert.ReferenceIdeal.ReadP.val_main_v46 (F := Ideal) x1 x2 (V c Cert.KernelIdeal.main_arg3) x4 x5 x13 x14 := by
  refine (region_blocks V c).trans ?_
  rw [h12, h19, h20, h21]
  exact G_eq_ref x1 x2 (V c Cert.KernelIdeal.main_arg3) x4 x5 x13 x14

end Cert.ItemFusion

end
-- ==== Proof.RowNormalizeSpec.lean ====
/-
  Row normalisation of a matrix, entry by entry, and the two column layouts it passes through.

  Every row of an n × d matrix X is divided by the larger of its Euclidean length and a fixed small
  threshold:  out[r, q] = X[r, q] / max (sqrt (Σ_k X[r, k] · X[r, k])) ε.  An entry of the result
  depends on its own row of X only, so a block of whole rows of the result is the same formula
  applied to the same block of rows of X.  Over the extended reals nothing here needs the entries to
  be finite: both programs apply these operations in this order to the same row.

  The row sums arrive as a vector of n entries, are recast as an n × 1 column, and the column is
  spread over the d columns again; the two lemmas below read those two layouts at an entry.
-/
import Idealize.ShloMosaic.Lib.ValueLayout
import Idealize.ShloMosaic.PureOps.Ideal.Laws

noncomputable section

open scoped BigOperators

namespace Cert.RowNormalize

open Idealize.ShloMosaic Idealize.ShloMosaic.ValueIdx

variable {α : Type}

/-- The threshold below which a row's length is replaced: the single-precision word of 1e-12. -/
abbrev floorWord : BitVec 32 := 0x2B8CBCCC#32

/-- Entry (r, q) of the row-normalised matrix: X[r, q] over the larger of row r's length and the threshold. -/
def entry {n d : Nat} (X : (⟨2, ![n, d]⟩ : Shape).Idx → EReal) (r : Fin n) (q : Fin d) : EReal :=
  Ideal.div (X (ix2 r q)) (max (Ideal.sqrt (∑ k : Fin d, X (ix2 r k) * X (ix2 r k))) (Ideal.ofBits .f32 floorWord))

/-- The row-normalised matrix. -/
def normalize {n d : Nat} (X : (⟨2, ![n, d]⟩ : Shape).Idx → EReal) : (⟨2, ![n, d]⟩ : Shape).Idx → EReal :=
  fun i => entry X (i 0) (i 1)

theorem normalize_ix2 {n d : Nat} (X : (⟨2, ![n, d]⟩ : Shape).Idx → EReal) (r : Fin n) (q : Fin d) :
    normalize X (ix2 r q) = entry X r q := rfl

/-- A vector of a entries recast as an a × 1 column reads, at (p, z), the vector's entry p. -/
theorem column_of_vector_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An a × 1 column spread over b columns reads, at (p, c), the column's entry p. -/
theorem spread_column_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.RowNormalize

end
-- ==== Proof.RowNormalizePoint.lean ====
/-
  What the normalising body stores at one grid point, entry by entry.

  The body loads a block x of 15000 whole rows (64 columns), squares it, sums every row, takes the
  square root of each row sum, replaces it by the threshold where it is smaller, and divides every
  entry of x by its row's value.  Read at row r and column q of the block this is the row-normalised
  block's entry (r, q): a sum over the 64 columns of row r of x, and nothing from any other row.
-/
import proofs.«163263_j64476049047989_2_alg».proof.Proof.Gen.KernelIdeal.Skeleton
import proofs.«163263_j64476049047989_2_alg».proof.Proof.RowNormalizeSpec

noncomputable section

open scoped BigOperators

namespace Cert.RowNormalize

open Idealize.ShloMosaic Idealize.ShloMosaic.ValueIdx
open Cert.KernelIdeal Cert.KernelIdeal.Gen

/-- The sum of the 64 columns of a block, read at row r: the sum over k of the block's entry (r, k). -/
theorem row_sum_apply (v : FVec Ideal S15000x64 .f32) (h : S15000x64.Reduces [1] S15000) (hφ : FKind.Formats .f32)
    (hacc : (0x00000000#32 : BitVec 32) = FKind.add.neutral .f32 hφ) (r : Fin 15000) :
    multiReduction .add [1] S15000 v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext a
  apply Fin.ext
  match a with
  | ⟨0, _⟩ => rfl
  | ⟨1, _⟩ => rfl

/-- The stored block at (r, q) is the row-normalised loaded block's entry (r, q). -/
theorem payload_apply (x : Vec Ideal S15000x64 .f32) (r : Fin 15000) (q : Fin 64) :
    k2_pay1 (F := Ideal) x (ix2 r q) = entry x r q := by
  unfold k2_pay1
  simp only [shapeCast_self]
  unfold entry
  refine congrArg (Ideal.div (x (ix2 r q))) ?_
  refine (spread_column_apply _ broadcasts_S15000x1_S15000x64 r q).trans ?_
  show max (Ideal.sqrt (shapeCast S15000x1 _ shapeCasts_S15000_S15000x1 (ix2 r (0 : Fin 1)))) (Ideal.ofBits .f32 floorWord) = _
  refine congrArg (fun s => max (Ideal.sqrt s) (Ideal.ofBits .f32 floorWord)) ?_
  refine (column_of_vector_apply _ shapeCasts_S15000_S15000x1 r 0).trans ?_
  exact row_sum_apply (mulf x x) _ _ _ r

end Cert.RowNormalize

end
-- ==== Proof.RowNormalizeArray.lean ====
/-
  From the twenty blocks to the whole array.

  The normalising region walks a grid of 20 points.  At point t it reads rows 15000·t … 15000·t + 14999
  of the embedding matrix (all 64 columns) and writes the same rows of the result.  Since an entry of the
  row-normalised matrix depends on its own row only, the block point t writes is exactly block t of the
  row-normalised matrix; row i lies in the block of point i / 15000, so the twenty blocks cover the
  array, and the array after the region is the row-normalised matrix.
-/
import proofs.«163263_j64476049047989_2_alg».proof.Proof.Gen.KernelIdeal.Frame
import proofs.«163263_j64476049047989_2_alg».proof.Proof.RowNormalizePoint
import Idealize.ShloMosaic.Lib.Pipeline.Value

noncomputable section

open scoped BigOperators

namespace Cert.RowNormalize

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Both windows' block at point t is row block t, column block 0. -/
theorem block_indices : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- A block of whole rows of a matrix, normalised, is the same rows of the normalised matrix: if the
    block x holds rows n·15000 … of X, the stored block at j is the normalised X at the matching index. -/
theorem block_entry (X : S300000x64.Idx → EReal) (x : Vec Ideal S15000x64 .f32) (n : Nat)
    (hx : ∀ (r : Fin 15000) (q : Fin 64) (i : S300000x64.Idx), (i 0).val = n * 15000 + r.val → (i 1).val = q.val → x (ix2 r q) = X i)
    (j : S15000x64.Idx) (i : S300000x64.Idx) (hi0 : (i 0).val = n * 15000 + (j 0).val) (hi1 : (i 1).val = (j 1).val) :
    k2_pay1 (F := Ideal) x j = normalize X i := by
  obtain ⟨r, q, rfl⟩ : ∃ (r : Fin 15000) (q : Fin 64), j = ix2 r q := ⟨j 0, j 1, eq_ix2 j⟩
  obtain ⟨R, Q, rfl⟩ : ∃ (R : Fin 300000) (Q : Fin 64), i = ix2 R Q := ⟨i 0, i 1, eq_ix2 i⟩
  have hR : R.val = n * 15000 + r.val := hi0
  have hQ : Q = q := Fin.ext hi1
  subst hQ
  rw [payload_apply, normalize_ix2]
  unfold entry
  rw [hx r Q (ix2 R Q) hR rfl]
  refine congrArg (fun s => Ideal.div (X (ix2 R Q)) (max (Ideal.sqrt s) (Ideal.ofBits .f32 floorWord))) ?_
  refine Finset.sum_congr rfl fun k _ => ?_
  rw [hx r k (ix2 R k) hR rfl]

/-- The input window's block at point t holds rows 15000·t … of the matrix as the region finds it. -/
theorem input_block_apply (c : Dev nD) (t : Fin cfg2.N) (y : S15000x64.Idx) (i : S300000x64.Idx)
    (hi0 : (i 0).val = t.val * 15000 + (y 0).val) (hi1 : (i 1).val = (y 1).val) :
    (iblk2 V c 0 t : Vec Ideal S15000x64 .f32) y = (V c main_v92 : S300000x64.Idx → EReal) i := by
  obtain ⟨e0, e1, -, -⟩ := block_indices t
  unfold iblk2
  rw [View.read_apply]
  show V c main_v92 _ = V c main_v92 _
  refine congrArg (V c main_v92) ?_
  funext a
  apply Fin.ext
  match a with
  | ⟨0, _⟩ => show win2_0.index t (0 : Fin 2) * 15000 + 1 * (y 0).val = (i 0).val; rw [e0, hi0]; omega
  | ⟨1, _⟩ => show win2_0.index t (1 : Fin 2) * 64 + 1 * (y 1).val = (i 1).val; rw [e1, hi1]; omega

/-- What point t writes back is block t of the row-normalised matrix. -/
theorem flushed_eq (c : Dev nD) (t : Fin cfg2.N) :
    (dat2 V c).flushed 1 t
      = ((cfg2.win 1).blk t).view.read (Elt Ideal) (normalize (V c main_v92 : S300000x64.Idx → EReal)) := by
  show (cfg2.win 1).cut (grid2.coords t) ((dat2 V c).after 1 t) = _
  rw [after2_1]
  unfold out2_1
  rw [View.canon_unit_zero zero_offsets]
  simp only [View.ld_unit_zero (S := S15000x64) zero_offsets]
  obtain ⟨-, -, e2, e3⟩ := block_indices t
  funext j
  rw [View.read_apply]
  refine block_entry (V c main_v92) (iblk2 V c 0 t) t.val
    (fun r q i h0 h1 => input_block_apply V c t (ix2 r q) i h0 h1) j _ ?_ ?_
  · show win2_1.index t (0 : Fin 2) * 15000 + 1 * (j 0).val = t.val * 15000 + (j 0).val
    rw [e2]; omega
  · show win2_1.index t (1 : Fin 2) * 64 + 1 * (j 1).val = (j 1).val
    rw [e3]; omega

/-- An index of the array is in point t's block iff each coordinate is in the block's range on its axis. -/
theorem mem_block (t : Fin cfg2.N) (i : S300000x64.Idx) :
    i ∈ ((cfg2.win 1).blk t).view.set ↔ ∀ a : Fin 2, win2_1.index t a * S15000x64.size a ≤ (i a).val ∧ (i a).val < win2_1.index t a * S15000x64.size a + S15000x64.size a := by
  show i ∈ ((View.whole main_v93).slice (win2_1.rect t)).set ↔ _
  rw [View.set_slice_whole, Rect.mem_set_unit]
  exact Iff.rfl

/-- Row i of the array lies in the block of point i / 15000. -/
theorem cover (i : S300000x64.Idx) :
    ∃ t : Fin cfg2.N, (cfg2.win 1).flush t = true ∧ i ∈ ((cfg2.win 1).blk t).view.set := by
  have hi0 : (i 0).val < 300000 := (i 0).isLt
  have hi1 : (i 1).val < 64 := (i 1).isLt
  have hN : grid2.N = 20 := N_2
  have ht : (i 0).val / 15000 < cfg2.N := by show (i 0).val / 15000 < grid2.N; rw [hN]; omega
  obtain ⟨-, -, e2, e3⟩ := block_indices ⟨(i 0).val / 15000, ht⟩
  refine ⟨⟨(i 0).val / 15000, ht⟩, flush2_1 _, ?_⟩
  rw [mem_block]
  intro a
  match a with
  | ⟨0, _⟩ =>
    show win2_1.index ⟨(i 0).val / 15000, ht⟩ (0 : Fin 2) * 15000 ≤ (i 0).val ∧ (i 0).val < win2_1.index ⟨(i 0).val / 15000, ht⟩ (0 : Fin 2) * 15000 + 15000
    rw [e2]; show (i 0).val / 15000 * 15000 ≤ (i 0).val ∧ (i 0).val < (i 0).val / 15000 * 15000 + 15000; omega
  | ⟨1, _⟩ =>
    show win2_1.index ⟨(i 0).val / 15000, ht⟩ (1 : Fin 2) * 64 ≤ (i 1).val ∧ (i 1).val < win2_1.index ⟨(i 0).val / 15000, ht⟩ (1 : Fin 2) * 64 + 64
    rw [e3]; omega

/-- The output array after the region is the row-normalised input array. -/
theorem array_eq (c : Dev nD) :
    (dat2 V c).arrAt 1 cfg2.N = normalize (V c main_v92 : S300000x64.Idx → EReal) :=
  (dat2 V c).arrAt_eq_of_cover 1 (normalize (V c main_v92 : S300000x64.Idx → EReal)) (fun t _ => flushed_eq V c t) cover

end Cert.RowNormalize

end
-- ==== Proof.RowNormalizeRef.lean ====
/-
  The reference's normalising stage is the row normalisation of the stage before it.

  The reference squares the embedding matrix, sums each row from zero, lays the 300000 row sums out
  as a column, takes square roots, takes the larger of each and the threshold, spreads the column
  over the 64 columns again and divides.  Read at (r, q), every step reads row r of its operand, so
  the stage is the matrix's entry (r, q) over the larger of row r's length and the threshold.  The
  only arithmetic fact used is that a sum started from zero is the sum.
-/
import proofs.«163263_j64476049047989_2_alg».proof.Proof.RefStages
import proofs.«163263_j64476049047989_2_alg».proof.Proof.RowNormalizeSpec

noncomputable section

open scoped BigOperators

namespace Cert.RowNormalize

open Idealize.ShloMosaic Idealize.ShloMosaic.ValueIdx
open Cert.ReferenceIdeal Cert.ReferenceIdeal.ReadP

/-- Through the two broadcasts and the row sum, entry (r, q) reads the squared matrix at (r, k). -/
theorem row_index (r : Fin 300000) (q : Fin 64) (k : Fin 64) :
    idx_main_v118 (idx_main_v119 (idx_main_v123 (ix2 r q))) k = ix2 r k :=
  funext fun a => Fin.ext (by match a with | ⟨0, _⟩ => rfl | ⟨1, _⟩ => rfl)

/-- A sum started from the single-precision zero word is the sum. -/
theorem zero_word_add (s : EReal) : (FloatOps.ofBits (F := Ideal) .f32 0x00000000#32 : EReal) + s = s := by
  show Ideal.ofBits .f32 0x00000000#32 + s = s
  rw [Ideal.ofBits_zero_f32, zero_add]

/-- The reference's normalising stage is `normalize` of the stage it starts from. -/
theorem reference_eq (x0 : (⟨S200000x64, .f32⟩ : BufTy).Contents (Elt Ideal)) (x1 : (⟨S20000x64, .f32⟩ : BufTy).Contents (Elt Ideal)) (x2 : (⟨S30000x64, .f32⟩ : BufTy).Contents (Elt Ideal)) (x3 : (⟨S100000x64, .f32⟩ : BufTy).Contents (Elt Ideal)) (x4 : (⟨S64x64, .f32⟩ : BufTy).Contents (Elt Ideal)) (x5 : (⟨S64, .f32⟩ : BufTy).Contents (Elt Ideal)) (x6 : (⟨S32x8, .f32⟩ : BufTy).Contents (Elt Ideal)) (x7 : (⟨S32, .f32⟩ : BufTy).Contents (Elt Ideal)) (x8 : (⟨S1x32, .f32⟩ : BufTy).Contents (Elt Ideal)) (x9 : (⟨S1, .f32⟩ : BufTy).Contents (Elt Ideal)) (x10 : (⟨S2000000x8, .f32⟩ : BufTy).Contents (Elt Ideal))
    (x11 x12 : (⟨S1000000, .i32⟩ : BufTy).Contents (Elt Ideal)) (x13 x14 : (⟨S100000, .i32⟩ : BufTy).Contents (Elt Ideal)) :
    val_main_v124 (F := Ideal) x0 x1 x2 x3 x4 x5 x6 x7 x8 x9 x10 x11 x12 x13 x14 = normalize (val_main_v116 (F := Ideal) x0 x1 x2 x3 x4 x5 x6 x7 x8 x9 x10 x11 x12 x13 x14) := by
  funext i
  obtain ⟨r, q, rfl⟩ : ∃ (r : Fin 300000) (q : Fin 64), i = ix2 r q := ⟨i 0, i 1, eq_ix2 i⟩
  rw [val_main_v124_apply, val_main_v123_apply, val_main_v122_apply, val_main_v121_apply, val_main_cst_26_apply,
    val_main_v120_apply, val_main_v119_apply, val_main_v118_apply, val_main_cst_25_apply]
  have squares : val_main_v117 (F := Ideal) x0 x1 x2 x3 x4 x5 x6 x7 x8 x9 x10 x11 x12 x13 x14
      = fun j : S300000x64.Idx => FloatOps.mulf (F := Ideal) (φ := .f32) (val_main_v116 (F := Ideal) x0 x1 x2 x3 x4 x5 x6 x7 x8 x9 x10 x11 x12 x13 x14 j) (val_main_v116 (F := Ideal) x0 x1 x2 x3 x4 x5 x6 x7 x8 x9 x10 x11 x12 x13 x14 j) :=
    funext fun j => val_main_v117_apply x0 x1 x2 x3 x4 x5 x6 x7 x8 x9 x10 x11 x12 x13 x14 j
  rw [squares]
  clear squares
  generalize val_main_v116 (F := Ideal) x0 x1 x2 x3 x4 x5 x6 x7 x8 x9 x10 x11 x12 x13 x14 = X
  refine congrArg (fun s => Ideal.div (X (ix2 r q)) (max (Ideal.sqrt s) (Ideal.ofBits .f32 floorWord))) ?_
  refine (zero_word_add _).trans ?_
  refine Finset.sum_congr rfl fun k _ => ?_
  rw [row_index r q k]
  first | done | rfl

end Cert.RowNormalize

end
-- ==== Proof.RowNormalizeRegion.lean ====
/-
  The normalising region against the reference's normalising stage.

  If the array the region reads holds the reference's stage before normalisation, the array it
  writes ends holding the reference's normalised stage: both are the row normalisation of that one
  matrix, the kernel's assembled from its twenty row blocks and the reference's computed whole.
-/
import proofs.«163263_j64476049047989_2_alg».proof.Proof.RowNormalizeArray
import proofs.«163263_j64476049047989_2_alg».proof.Proof.RowNormalizeRef

noncomputable section

namespace Cert.RowNormalize

open Idealize.ShloMosaic Idealize.ShloMosaic.TcCoe Idealize.SL.Sem

theorem region_array (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x0 : (⟨Cert.ReferenceIdeal.S200000x64, .f32⟩ : BufTy).Contents (Elt Ideal)) (x1 : (⟨Cert.ReferenceIdeal.S20000x64, .f32⟩ : BufTy).Contents (Elt Ideal)) (x2 : (⟨Cert.ReferenceIdeal.S30000x64, .f32⟩ : BufTy).Contents (Elt Ideal)) (x3 : (⟨Cert.ReferenceIdeal.S100000x64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S32x8, .f32⟩ : BufTy).Contents (Elt Ideal)) (x7 : (⟨Cert.ReferenceIdeal.S32, .f32⟩ : BufTy).Contents (Elt Ideal)) (x8 : (⟨Cert.ReferenceIdeal.S1x32, .f32⟩ : BufTy).Contents (Elt Ideal)) (x9 : (⟨Cert.ReferenceIdeal.S1, .f32⟩ : BufTy).Contents (Elt Ideal)) (x10 : (⟨Cert.ReferenceIdeal.S2000000x8, .f32⟩ : BufTy).Contents (Elt Ideal))
    (x11 x12 : (⟨Cert.ReferenceIdeal.S1000000, .i32⟩ : BufTy).Contents (Elt Ideal)) (x13 x14 : (⟨Cert.ReferenceIdeal.S100000, .i32⟩ : BufTy).Contents (Elt Ideal))
    (h92 : V c Cert.KernelIdeal.main_v92 = Cert.ReferenceIdeal.ReadP.val_main_v116 (F := Ideal) x0 x1 x2 x3 x4 x5 x6 x7 x8 x9 x10 x11 x12 x13 x14) :
    (Cert.KernelIdeal.Gen.dat2 (F := Ideal) V c).arrAt 1 Cert.KernelIdeal.cfg2.N
      = Cert.ReferenceIdeal.ReadP.val_main_v124 (F := Ideal) x0 x1 x2 x3 x4 x5 x6 x7 x8 x9 x10 x11 x12 x13 x14 := by
  rw [reference_eq, ← h92]
  exact array_eq V c

end Cert.RowNormalize

end
-- ==== Proof.lean ====
/-
  The certificate's five claims.

  The three frames: the two kernel programs' are the generated frame certificates; the reference
  has no kernel, and its frame is its run with the results dropped. The idealization
  rewrote nothing, so `preserves` is trivial. The value claim: at the extended reals the kernel
  program's two results are the reference's stages of the launch arguments — the rows of the
  normalised node table at the users asked for, and the mean of one minus the cosine between each
  user's row and its positive item's row. On the kernel's side this is the run with its final
  memory named and the walk through its segments (`Whole.result0`, `Whole.result1`), resting on
  what the three regions leave in their output arrays: the edge weights
  `sigmoid(relu(f·W1ᵀ + b1)·W2ᵀ + b2)`, the fused item rows `normalise((audio + artist + album)·Wᵀ + b)`
  and the row-normalised node table, each equal to the reference's stage index by index because at
  the extended reals the casts to bf16 are the identity, a matrix product into a zero accumulator
  and a row reduction from zero are plain sums, and the blocks of a grid tile the array. On the
  reference's side it is the run of its straight line of host operations read back as the same
  stages. Nothing needs the inputs finite: the two sides apply the same operations to the same values.
-/
import proofs.«163263_j64476049047989_2_alg».proof.Defs
import proofs.«163263_j64476049047989_2_alg».proof.Proof.Gen.Kernel
import proofs.«163263_j64476049047989_2_alg».proof.Proof.Gen.Kernel.Frame
import proofs.«163263_j64476049047989_2_alg».proof.Proof.Gen.KernelIdeal
import proofs.«163263_j64476049047989_2_alg».proof.Proof.Gen.KernelIdeal.Frame
import proofs.«163263_j64476049047989_2_alg».proof.Proof.Gen.ReferenceIdeal
import proofs.«163263_j64476049047989_2_alg».proof.Proof.RefRun
import proofs.«163263_j64476049047989_2_alg».proof.Proof.Gen.Pre_finite_inputs
import proofs.«163263_j64476049047989_2_alg».proof.Proof.KernelValue
import proofs.«163263_j64476049047989_2_alg».proof.Proof.EdgeMlpRegion
import proofs.«163263_j64476049047989_2_alg».proof.Proof.ItemFusionArray
import proofs.«163263_j64476049047989_2_alg».proof.Proof.RowNormalizeRegion
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.ReadP (val_main_v131 val_main_v158)

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2.2)
    (Cert.ReferenceIdeal.Whole.run (F := Ideal) m ρ)

theorem edgeWeights : Cert.KernelIdeal.Whole.EdgeWeights := fun V c x6 x7 x8 x9 h0 h1 h2 h3 =>
  Cert.EdgeMlp.region_array V c x6 x7 x8 x9 h0 h1 h2 h3
theorem fusedItems : Cert.KernelIdeal.Whole.FusedItems := fun V c x1 x2 x4 x5 x13 x14 h12 h19 h20 h21 =>
  Cert.ItemFusion.region_array V c x1 x2 x4 x5 x13 x14 h12 h19 h20 h21
theorem normalisedNodes : Cert.KernelIdeal.Whole.NormalisedNodes := fun V c x0 x1 x2 x3 x4 x5 x6 x7 x8 x9 x10 x11 x12 x13 x14 h92 =>
  Cert.RowNormalize.region_array V c x0 x1 x2 x3 x4 x5 x6 x7 x8 x9 x10 x11 x12 x13 x14 h92

set_option maxHeartbeats 1000000 in
theorem algebraic : Cert.algebraic_KernelIdeal_ReferenceIdeal := by
  intro m ρ m' ρ' _ hagree
  refine ⟨fun c => val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => val_main_v158 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ?_) (Cert.KernelIdeal.Whole.run_final (F := Ideal) m ρ)
    exact ⟨(Cert.KernelIdeal.Whole.final_at m ρ h c Cert.KernelIdeal.main_v100 (by decide)).trans
        (Cert.KernelIdeal.Whole.result0 m ρ c edgeWeights fusedItems normalisedNodes),
      (Cert.KernelIdeal.Whole.final_at m ρ h c Cert.KernelIdeal.main_v127 (by decide)).trans
        (Cert.KernelIdeal.Whole.result1 m ρ c edgeWeights fusedItems normalisedNodes),
      (Cert.KernelIdeal.Whole.final_at m ρ h c Cert.KernelIdeal.main_arg0 (by decide)).trans (Cert.KernelIdeal.Gen.W11_main_arg0 m ρ c),
      (Cert.KernelIdeal.Whole.final_at m ρ h c Cert.KernelIdeal.main_arg1 (by decide)).trans (Cert.KernelIdeal.Gen.W11_main_arg1 m ρ c),
      (Cert.KernelIdeal.Whole.final_at m ρ h c Cert.KernelIdeal.main_arg2 (by decide)).trans (Cert.KernelIdeal.Gen.W11_main_arg2 m ρ c),
      (Cert.KernelIdeal.Whole.final_at m ρ h c Cert.KernelIdeal.main_arg3 (by decide)).trans (Cert.KernelIdeal.Gen.W11_main_arg3 m ρ c),
      (Cert.KernelIdeal.Whole.final_at m ρ h c Cert.KernelIdeal.main_arg4 (by decide)).trans (Cert.KernelIdeal.Gen.W11_main_arg4 m ρ c),
      (Cert.KernelIdeal.Whole.final_at m ρ h c Cert.KernelIdeal.main_arg5 (by decide)).trans (Cert.KernelIdeal.Gen.W11_main_arg5 m ρ c),
      (Cert.KernelIdeal.Whole.final_at m ρ h c Cert.KernelIdeal.main_arg6 (by decide)).trans (Cert.KernelIdeal.Gen.W11_main_arg6 m ρ c),
      (Cert.KernelIdeal.Whole.final_at m ρ h c Cert.KernelIdeal.main_arg7 (by decide)).trans (Cert.KernelIdeal.Gen.W11_main_arg7 m ρ c),
      (Cert.KernelIdeal.Whole.final_at m ρ h c Cert.KernelIdeal.main_arg8 (by decide)).trans (Cert.KernelIdeal.Gen.W11_main_arg8 m ρ c),
      (Cert.KernelIdeal.Whole.final_at m ρ h c Cert.KernelIdeal.main_arg9 (by decide)).trans (Cert.KernelIdeal.Gen.W11_main_arg9 m ρ c),
      (Cert.KernelIdeal.Whole.final_at m ρ h c Cert.KernelIdeal.main_arg10 (by decide)).trans (Cert.KernelIdeal.Gen.W11_main_arg10 m ρ c),
      (Cert.KernelIdeal.Whole.final_at m ρ h c Cert.KernelIdeal.main_arg11 (by decide)).trans (Cert.KernelIdeal.Gen.W11_main_arg11 m ρ c),
      (Cert.KernelIdeal.Whole.final_at m ρ h c Cert.KernelIdeal.main_arg12 (by decide)).trans (Cert.KernelIdeal.Gen.W11_main_arg12 m ρ c),
      (Cert.KernelIdeal.Whole.final_at m ρ h c Cert.KernelIdeal.main_arg13 (by decide)).trans (Cert.KernelIdeal.Gen.W11_main_arg13 m ρ c),
      (Cert.KernelIdeal.Whole.final_at m ρ h c Cert.KernelIdeal.main_arg14 (by decide)).trans (Cert.KernelIdeal.Gen.W11_main_arg14 m ρ c),
      (Cert.KernelIdeal.Whole.final_at m ρ h c Cert.KernelIdeal.main_arg15 (by decide)).trans (Cert.KernelIdeal.Gen.W11_main_arg15 m ρ c),
      (Cert.KernelIdeal.Whole.final_at m ρ h c Cert.KernelIdeal.main_arg16 (by decide)).trans (Cert.KernelIdeal.Gen.W11_main_arg16 m ρ c)⟩
  · refine (θ_run Cert.ReferenceIdeal.defs _ _).mono (fun r h c => ?_) (Cert.ReferenceIdeal.Whole.run (F := Ideal) m' ρ')
    obtain ⟨e0, e1, e2, e3, e4, e5, e6, e7, e8, e9, e10, e11, e12, e13, e14, e15, e16⟩ := hagree c
    refine ⟨(h c).1.trans ?_, (h c).2.1.trans ?_, (h c).2.2⟩
    · rw [e0, e1, e2, e3, e4, e5, e6, e7, e8, e9, e10, e11, e12, e13, e14, e15]
    · rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
